-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v118) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x128 : Shape := ⟨3, ![128, 256, 128]⟩
abbrev S2048x128 : Shape := ⟨2, ![2048, 128]⟩
abbrev S2048 : Shape := ⟨1, ![2048]⟩
abbrev S2048x512 : Shape := ⟨2, ![2048, 512]⟩
abbrev S10x512 : Shape := ⟨2, ![10, 512]⟩
abbrev S10 : Shape := ⟨1, ![10]⟩
abbrev S1024x128 : Shape := ⟨2, ![1024, 128]⟩
abbrev S1024 : Shape := ⟨1, ![1024]⟩
abbrev S1024x256 : Shape := ⟨2, ![1024, 256]⟩
abbrev S1x256 : Shape := ⟨2, ![1, 256]⟩
abbrev S1 : Shape := ⟨1, ![1]⟩
abbrev S_ : Shape := ⟨0, ![]⟩

class Facts : Prop where
  bcast_S_S128x256x128 : S_.BroadcastsInDim S128x256x128 (![] : Fin 0 → Fin S128x256x128.rank)
  reducesTo_S128x256x128_S_d0_1_2 : S128x256x128.ReducesTo [0, 1, 2] S_
  h_S_ : 0 < S_.numel
  bcast_S_S2048x128 : S_.BroadcastsInDim S2048x128 (![] : Fin 0 → Fin S2048x128.rank)
  reducesTo_S2048x128_S_d0_1 : S2048x128.ReducesTo [0, 1] S_
  bcast_S_S2048 : S_.BroadcastsInDim S2048 (![] : Fin 0 → Fin S2048.rank)
  reducesTo_S2048_S_d0 : S2048.ReducesTo [0] S_
  bcast_S_S2048x512 : S_.BroadcastsInDim S2048x512 (![] : Fin 0 → Fin S2048x512.rank)
  reducesTo_S2048x512_S_d0_1 : S2048x512.ReducesTo [0, 1] S_
  bcast_S_S10x512 : S_.BroadcastsInDim S10x512 (![] : Fin 0 → Fin S10x512.rank)
  reducesTo_S10x512_S_d0_1 : S10x512.ReducesTo [0, 1] S_
  bcast_S_S10 : S_.BroadcastsInDim S10 (![] : Fin 0 → Fin S10.rank)
  reducesTo_S10_S_d0 : S10.ReducesTo [0] S_
  bcast_S_S1024x128 : S_.BroadcastsInDim S1024x128 (![] : Fin 0 → Fin S1024x128.rank)
  reducesTo_S1024x128_S_d0_1 : S1024x128.ReducesTo [0, 1] S_
  bcast_S_S1024 : S_.BroadcastsInDim S1024 (![] : Fin 0 → Fin S1024.rank)
  reducesTo_S1024_S_d0 : S1024.ReducesTo [0] S_
  bcast_S_S1024x256 : S_.BroadcastsInDim S1024x256 (![] : Fin 0 → Fin S1024x256.rank)
  reducesTo_S1024x256_S_d0_1 : S1024x256.ReducesTo [0, 1] S_
  bcast_S_S1x256 : S_.BroadcastsInDim S1x256 (![] : Fin 0 → Fin S1x256.rank)
  reducesTo_S1x256_S_d0_1 : S1x256.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1x256 .f32) (main_arg12 : FVec F S1 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1x256 .f32 := Host.absf main_arg11
  let main_cst_20 : FVec F S_ .f32 := constant S_ .f32 0x7F800000#32
  let main_v55 : FVec F S1x256 .f32 := broadcastInDim S1x256 ![] bcast_S_S1x256 main_cst_20
  let main_v56 : IVec S1x256 1 := cmpf .olt main_v54 main_v55
  let main_c_21 : IVec S_ 1 := constantI S_ 1 1#1
  let main_v57 : IVec S_ 1 := (fun x v => Host.reduce IntOp.andi x v reducesTo_S1x256_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S1024x128 .f32) (main_arg8 : FVec F S1024 .f32) (main_arg9 : FVec F S1024x256 .f32) (main_arg10 : FVec F S1024 .f32) (main_arg11 : FVec F S1x256 .f32) (main_arg12 : FVec F S1 .f32) (main_v33 : IVec S_ 1) : IVec S_ 1 :=
  let main_v34 : FVec F S1024x128 .f32 := Host.absf main_arg7
  let main_cst_12 : FVec F S_ .f32 := constant S_ .f32 0x7F800000#32
  let main_v35 : FVec F S1024x128 .f32 := broadcastInDim S1024x128 ![] bcast_S_S1024x128 main_cst_12
  let main_v36 : IVec S1024x128 1 := cmpf .olt main_v34 main_v35
  let main_c_13 : IVec S_ 1 := constantI S_ 1 1#1
  let main_v37 : IVec S_ 1 := (fun x v => Host.reduce IntOp.andi x v reducesTo_S1024x128_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x256 .f32 := Host.absf main_arg9
  let main_cst_16 : FVec F S_ .f32 := constant S_ .f32 0x7F800000#32
  let main_v45 : FVec F S1024x256 .f32 := broadcastInDim S1024x256 ![] bcast_S_S1024x256 main_cst_16
  let main_v46 : IVec S1024x256 1 := cmpf .olt main_v44 main_v45
  let main_c_17 : IVec S_ 1 := constantI S_ 1 1#1
  let main_v47 : IVec S_ 1 := (fun x v => Host.reduce IntOp.andi x v reducesTo_S1024x256_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_v48 main_v49 main_v50

def fn_part1 {F : FTy → Type} [FloatOps F] (main_arg4 : FVec F S2048 .f32) (main_arg5 : FVec F S10x512 .f32) (main_arg6 : FVec F S10 .f32) (main_arg7 : FVec F S1024x128 .f32) (main_arg8 : FVec F S1024 .f32) (main_arg9 : FVec F S1024x256 .f32) (main_arg10 : FVec F S1024 .f32) (main_arg11 : FVec F S1x256 .f32) (main_arg12 : FVec F S1 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S10x512 .f32 := Host.absf main_arg5
  let main_cst_8 : FVec F S_ .f32 := constant S_ .f32 0x7F800000#32
  let main_v25 : FVec F S10x512 .f32 := broadcastInDim S10x512 ![] bcast_S_S10x512 main_cst_8
  let main_v26 : IVec S10x512 1 := cmpf .olt main_v24 main_v25
  let main_c_9 : IVec S_ 1 := constantI S_ 1 1#1
  let main_v27 : IVec S_ 1 := (fun x v => Host.reduce IntOp.andi x v reducesTo_S10x512_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x256x128 .f32) (main_arg1 : FVec F S2048x128 .f32) (main_arg2 : FVec F S2048 .f32) (main_arg3 : FVec F S2048x512 .f32) (main_arg4 : FVec F S2048 .f32) (main_arg5 : FVec F S10x512 .f32) (main_arg6 : FVec F S10 .f32) (main_arg7 : FVec F S1024x128 .f32) (main_arg8 : FVec F S1024 .f32) (main_arg9 : FVec F S1024x256 .f32) (main_arg10 : FVec F S1024 .f32) (main_arg11 : FVec F S1x256 .f32) (main_arg12 : FVec F S1 .f32) : IVec S_ 1 :=
  let main_v0 : FVec F S128x256x128 .f32 := Host.absf main_arg0
  let main_cst : FVec F S_ .f32 := constant S_ .f32 0x7F800000#32
  let main_v1 : FVec F S128x256x128 .f32 := broadcastInDim S128x256x128 ![] bcast_S_S128x256x128 main_cst
  let main_v2 : IVec S128x256x128 1 := cmpf .olt main_v0 main_v1
  let main_c : IVec S_ 1 := constantI S_ 1 1#1
  let main_v3 : IVec S_ 1 := (fun x v => Host.reduce IntOp.andi x v reducesTo_S128x256x128_S_d0_1_2 h_S_) main_v2 main_c
  let main_v4 : FVec F S2048x128 .f32 := Host.absf main_arg1
  let main_cst_0 : FVec F S_ .f32 := constant S_ .f32 0x7F800000#32
  let main_v5 : FVec F S2048x128 .f32 := broadcastInDim S2048x128 ![] bcast_S_S2048x128 main_cst_0
  let main_v6 : IVec S2048x128 1 := cmpf .olt main_v4 main_v5
  let main_c_1 : IVec S_ 1 := constantI S_ 1 1#1
  let main_v7 : IVec S_ 1 := (fun x v => Host.reduce IntOp.andi x v reducesTo_S2048x128_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_arg7 main_arg8 main_arg9 main_arg10 main_arg11 main_arg12 main_v13 main_v16
-- ==== Kernel.lean ====
abbrev S128x256x128 : Shape := ⟨3, ![128, 256, 128]⟩
abbrev S2048x128 : Shape := ⟨2, ![2048, 128]⟩
abbrev S2048 : Shape := ⟨1, ![2048]⟩
abbrev S2048x512 : Shape := ⟨2, ![2048, 512]⟩
abbrev S10x512 : Shape := ⟨2, ![10, 512]⟩
abbrev S10 : Shape := ⟨1, ![10]⟩
abbrev S1024x128 : Shape := ⟨2, ![1024, 128]⟩
abbrev S1024 : Shape := ⟨1, ![1024]⟩
abbrev S1024x256 : Shape := ⟨2, ![1024, 256]⟩
abbrev S1x256 : Shape := ⟨2, ![1, 256]⟩
abbrev S1 : Shape := ⟨1, ![1]⟩
abbrev S32768x128 : Shape := ⟨2, ![32768, 128]⟩
abbrev S128x2048 : Shape := ⟨2, ![128, 2048]⟩
abbrev S512x2048 : Shape := ⟨2, ![512, 2048]⟩
abbrev S512x10 : Shape := ⟨2, ![512, 10]⟩
abbrev S128x1024 : Shape := ⟨2, ![128, 1024]⟩
abbrev S256x1024 : Shape := ⟨2, ![256, 1024]⟩
abbrev S256x1 : Shape := ⟨2, ![256, 1]⟩
abbrev S1x2048 : Shape := ⟨2, ![1, 2048]⟩
abbrev S1x10 : Shape := ⟨2, ![1, 10]⟩
abbrev S1x1024 : Shape := ⟨2, ![1, 1024]⟩
abbrev S1x1 : Shape := ⟨2, ![1, 1]⟩
abbrev S32768x1 : Shape := ⟨2, ![32768, 1]⟩
abbrev S512x128 : Shape := ⟨2, ![512, 128]⟩
abbrev S512x1 : Shape := ⟨2, ![512, 1]⟩
abbrev S512x512 : Shape := ⟨2, ![512, 512]⟩
abbrev S512 : Shape := ⟨1, ![512]⟩
abbrev S512x1024 : Shape := ⟨2, ![512, 1024]⟩
abbrev S512x256 : Shape := ⟨2, ![512, 256]⟩
abbrev S128x256 : Shape := ⟨2, ![128, 256]⟩

abbrev nBuf : Space → Nat
  | .hbm => 37
  | .vmem => 18
  | .smem => 0
  | _ => 0

abbrev bufTy : (tb : Table) → Fin (tcTables nBuf tb) → BufTy
  | .hbm, ⟨0, _⟩ => ⟨S128x256x128, .f32⟩
  | .hbm, ⟨1, _⟩ => ⟨S2048x128, .f32⟩
  | .hbm, ⟨2, _⟩ => ⟨S2048, .f32⟩
  | .hbm, ⟨3, _⟩ => ⟨S2048x512, .f32⟩
  | .hbm, ⟨4, _⟩ => ⟨S2048, .f32⟩
  | .hbm, ⟨5, _⟩ => ⟨S10x512, .f32⟩
  | .hbm, ⟨6, _⟩ => ⟨S10, .f32⟩
  | .hbm, ⟨7, _⟩ => ⟨S1024x128, .f32⟩
  | .hbm, ⟨8, _⟩ => ⟨S1024, .f32⟩
  | .hbm, ⟨9, _⟩ => ⟨S1024x256, .f32⟩
  | .hbm, ⟨10, _⟩ => ⟨S1024, .f32⟩
  | .hbm, ⟨11, _⟩ => ⟨S1x256, .f32⟩
  | .hbm, ⟨12, _⟩ => ⟨S1, .f32⟩
  | .hbm, ⟨13, _⟩ => ⟨S32768x128, .f32⟩
  | .hbm, ⟨14, _⟩ => ⟨S32768x128, .bf16⟩
  | .hbm, ⟨15, _⟩ => ⟨S128x2048, .f32⟩
  | .hbm, ⟨16, _⟩ => ⟨S128x2048, .bf16⟩
  | .hbm, ⟨17, _⟩ => ⟨S512x2048, .f32⟩
  | .hbm, ⟨18, _⟩ => ⟨S512x2048, .bf16⟩
  | .hbm, ⟨19, _⟩ => ⟨S512x10, .f32⟩
  | .hbm, ⟨20, _⟩ => ⟨S512x10, .bf16⟩
  | .hbm, ⟨21, _⟩ => ⟨S128x1024, .f32⟩
  | .hbm, ⟨22, _⟩ => ⟨S128x1024, .bf16⟩
  | .hbm, ⟨23, _⟩ => ⟨S256x1024, .f32⟩
  | .hbm, ⟨24, _⟩ => ⟨S256x1024, .bf16⟩
  | .hbm, ⟨25, _⟩ => ⟨S256x1, .f32⟩
  | .hbm, ⟨26, _⟩ => ⟨S256x1, .bf16⟩
  | .hbm, ⟨27, _⟩ => ⟨S1x2048, .f32⟩
  | .hbm, ⟨28, _⟩ => ⟨S1x2048, .f32⟩
  | .hbm, ⟨29, _⟩ => ⟨S1x10, .f32⟩
  | .hbm, ⟨30, _⟩ => ⟨S1x1024, .f32⟩
  | .hbm, ⟨31, _⟩ => ⟨S1x1024, .f32⟩
  | .hbm, ⟨32, _⟩ => ⟨S1x1, .f32⟩
  | .hbm, ⟨33, _⟩ => ⟨S32768x1, .f32⟩
  | .hbm, ⟨34, _⟩ => ⟨S32768x1, .f32⟩
  | .hbm, ⟨35, _⟩ => ⟨S128x256, .f32⟩
  | .hbm, ⟨36, _⟩ => ⟨S128x256, .f32⟩
  | .local _ .vmem, ⟨0, _⟩ => ⟨S512x128, .bf16⟩
  | .local _ .vmem, ⟨1, _⟩ => ⟨S512x128, .bf16⟩
  | .local _ .vmem, ⟨2, _⟩ => ⟨S128x2048, .bf16⟩
  | .local _ .vmem, ⟨3, _⟩ => ⟨S1x2048, .f32⟩
  | .local _ .vmem, ⟨4, _⟩ => ⟨S512x2048, .bf16⟩
  | .local _ .vmem, ⟨5, _⟩ => ⟨S1x2048, .f32⟩
  | .local _ .vmem, ⟨6, _⟩ => ⟨S512x10, .bf16⟩
  | .local _ .vmem, ⟨7, _⟩ => ⟨S1x10, .f32⟩
  | .local _ .vmem, ⟨8, _⟩ => ⟨S128x1024, .bf16⟩
  | .local _ .vmem, ⟨9, _⟩ => ⟨S1x1024, .f32⟩
  | .local _ .vmem, ⟨10, _⟩ => ⟨S256x1024, .bf16⟩
  | .local _ .vmem, ⟨11, _⟩ => ⟨S1x1024, .f32⟩
  | .local _ .vmem, ⟨12, _⟩ => ⟨S256x1, .bf16⟩
  | .local _ .vmem, ⟨13, _⟩ => ⟨S1x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v21 : Ref sig .tc := ⟨.hbm, 35, rfl⟩
abbrev main_v22 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x10 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

class Facts₀ : Prop where
  shapeCasts_S128x256x128_S32768x128 : S128x256x128.ShapeCasts S32768x128
  bitsLt_bf16_f32 : FTy.bits .bf16 < FTy.bits .f32
  transposes_S2048x128_S128x2048_1_0 : S2048x128.Transposes [1, 0] S128x2048
  transposes_S2048x512_S512x2048_1_0 : S2048x512.Transposes [1, 0] S512x2048
  transposes_S10x512_S512x10_1_0 : S10x512.Transposes [1, 0] S512x10
  transposes_S1024x128_S128x1024_1_0 : S1024x128.Transposes [1, 0] S128x1024
  transposes_S1024x256_S256x1024_1_0 : S1024x256.Transposes [1, 0] S256x1024
  transposes_S1x256_S256x1_1_0 : S1x256.Transposes [1, 0] S256x1
  shapeCasts_S2048_S1x2048 : S2048.ShapeCasts S1x2048
  shapeCasts_S10_S1x10 : S10.ShapeCasts S1x10
  shapeCasts_S1024_S1x1024 : S1024.ShapeCasts S1x1024
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_1024_S512x512 : S512x2048.Slices ![0, 1024] S512x512
  slices_S512x2048_o0_1536_S512x512 : S512x2048.Slices ![0, 1536] S512x512
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S512x10_S512x10_0_0 : ∀ a, (![0, 0] : Fin 2 → Nat) a + S512x10.size a ≤ S512x10.size a
  h_S512x10 : 0 < S512x10.numel
  shapeCasts_S512x10_S512x10 : S512x10.ShapeCasts S512x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S512x10 : S1x10.Broadcasts S512x10
  reduces_S512x10_S512 : S512x10.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  slices_S512x1024_o0_0_S512x256 : S512x1024.Slices ![0, 0] S512x256
  slices_S512x1024_o0_512_S512x256 : S512x1024.Slices ![0, 512] S512x256
  slices_S512x1024_o0_768_S512x256 : S512x1024.Slices ![0, 768] S512x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  shapeCasts_S32768x1_S128x256 : S32768x1.ShapeCasts S128x256
  dot_S512x128_S128x2048_S512x2048_1_0_0_1_n_n_wf : DotDims.WF S512x128 S128x2048 S512x2048 [1] [0] [0] [1] [] []
  dot_S512x512_S512x2048_S512x2048_1_0_0_1_n_n_wf : DotDims.WF S512x512 S512x2048 S512x2048 [1] [0] [0] [1] [] []
  dot_S512x512_S512x10_S512x10_1_0_0_1_n_n_wf : DotDims.WF S512x512 S512x10 S512x10 [1] [0] [0] [1] [] []
  dot_S512x128_S128x1024_S512x1024_1_0_0_1_n_n_wf : DotDims.WF S512x128 S128x1024 S512x1024 [1] [0] [0] [1] [] []
  dot_S512x256_S256x1024_S512x1024_1_0_0_1_n_n_wf : DotDims.WF S512x256 S256x1024 S512x1024 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S32768x128.size a
  hwx0_0 : ∀ i : grid0.Coords, EltTy.bits .bf16 = 32 ∨ (Rect.block (s := S32768x128) S512x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .bf16 = 32 ∨ (Rect.block (s := S128x2048) S128x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x10.size a ≤ S512x10.size a
  hwx0_5 : ∀ i : grid0.Coords, EltTy.bits .bf16 = 32 ∨ (Rect.block (s := S512x10) S512x10.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x1024.size a ≤ S128x1024.size a
  hwx0_7 : ∀ i : grid0.Coords, EltTy.bits .bf16 = 32 ∨ (Rect.block (s := S128x1024) S128x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S256x1024.size a
  hwx0_9 : ∀ i : grid0.Coords, EltTy.bits .bf16 = 32 ∨ (Rect.block (s := S256x1024) S256x1024.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S256x1.size a
  hwx0_11 : ∀ i : grid0.Coords, EltTy.bits .bf16 = 32 ∨ (Rect.block (s := S256x1) S256x1.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x1.size a ≤ S1x1.size a
  hwx0_12 : ∀ i : grid0.Coords, EltTy.bits .f32 = 32 ∨ (Rect.block (s := S1x1) S1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x1.size a ≤ S32768x1.size a
  hwx0_13 : ∀ i : grid0.Coords, EltTy.bits .f32 = 32 ∨ (Rect.block (s := S32768x1) S512x1.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x1.size a ≤ S32768x1.size a
  hwx0_14 : ∀ i : grid0.Coords, EltTy.bits .f32 = 32 ∨ (Rect.block (s := S32768x1) S512x1.size (cc0_transform_14 i) (hinb0_14 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf
def dot_S512x512_S512x10_S512x10_1_0_0_1_n_n : DotDims S512x512 S512x10 S512x10 where
  lhsContracting := [1]
  rhsContracting := [0]
  lhsNonContracting := [0]
  rhsNonContracting := [1]
  lhsBatch := []
  rhsBatch := []
  wf := dot_S512x512_S512x10_S512x10_1_0_0_1_n_n_wf
def dot_S512x128_S128x1024_S512x1024_1_0_0_1_n_n : DotDims S512x128 S128x1024 S512x1024 where
  lhsContracting := [1]
  rhsContracting := [0]
  lhsNonContracting := [0]
  rhsNonContracting := [1]
  lhsBatch := []
  rhsBatch := []
  wf := dot_S512x128_S128x1024_S512x1024_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_v1) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S512x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S128x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S256x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v13) S256x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v19) S1x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v20_0) S512x1.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v20_1) S512x1.size cc0_transform_14 reads0_14 true false 2 stage0_14 sem0_14
    hrank0 hreads0_14 hinb0_14 nbuf0_14 (Memref.isWhole_whole _) hwx0_14 hstage0_14

abbrev win0 : Fin 15 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | ⟨_ + 15, h⟩ => absurd h (Nat.not_lt.2 (Nat.le_add_left _ _))
abbrev spec0 : Fin 15 → Pipeline.WinSpec sig grid0.rank := fun w => (win0 w).toWinSpec

class Facts : Prop extends Facts₀ where

variable [Facts]
-- ==== ReferenceIdeal.lean ====
abbrev S128x256x128 : Shape := ⟨3, ![128, 256, 128]⟩
abbrev S2048x128 : Shape := ⟨2, ![2048, 128]⟩
abbrev S2048 : Shape := ⟨1, ![2048]⟩
abbrev S2048x512 : Shape := ⟨2, ![2048, 512]⟩
abbrev S10x512 : Shape := ⟨2, ![10, 512]⟩
abbrev S10 : Shape := ⟨1, ![10]⟩
abbrev S1024x128 : Shape := ⟨2, ![1024, 128]⟩
abbrev S1024 : Shape := ⟨1, ![1024]⟩
abbrev S1024x256 : Shape := ⟨2, ![1024, 256]⟩
abbrev S1x256 : Shape := ⟨2, ![1, 256]⟩
abbrev S1 : Shape := ⟨1, ![1]⟩
abbrev S32768x128 : Shape := ⟨2, ![32768, 128]⟩
abbrev S128x2048 : Shape := ⟨2, ![128, 2048]⟩
abbrev S32768x2048 : Shape := ⟨2, ![32768, 2048]⟩
abbrev S1x2048 : Shape := ⟨2, ![1, 2048]⟩
abbrev S32768x512 : Shape := ⟨2, ![32768, 512]⟩
abbrev S_ : Shape := ⟨0, ![]⟩
abbrev S512x2048 : Shape := ⟨2, ![512, 2048]⟩
abbrev S512x10 : Shape := ⟨2, ![512, 10]⟩
abbrev S32768x10 : Shape := ⟨2, ![32768, 10]⟩
abbrev S1x10 : Shape := ⟨2, ![1, 10]⟩
abbrev S32768 : Shape := ⟨1, ![32768]⟩
abbrev S128x256 : Shape := ⟨2, ![128, 256]⟩
abbrev S128x1024 : Shape := ⟨2, ![128, 1024]⟩
abbrev S32768x1024 : Shape := ⟨2, ![32768, 1024]⟩
abbrev S1x1024 : Shape := ⟨2, ![1, 1024]⟩
abbrev S32768x256 : Shape := ⟨2, ![32768, 256]⟩
abbrev S256x1024 : Shape := ⟨2, ![256, 1024]⟩
abbrev S256x1 : Shape := ⟨2, ![256, 1]⟩
abbrev S32768x1 : Shape := ⟨2, ![32768, 1]⟩
abbrev S1x1 : Shape := ⟨2, ![1, 1]⟩

abbrev nBuf : Space → Nat
  | .hbm => 167
  | .vmem => 0
  | .smem => 0
  | _ => 0

abbrev hbmTy0_0 (i : Nat) : BufTy := match i % 128 with
  | 0 => ⟨S128x256x128, .f32⟩
  | 1 => ⟨S2048x128, .f32⟩
  | 2 => ⟨S2048, .f32⟩
  | 3 => ⟨S2048x512, .f32⟩
  | 4 => ⟨S2048, .f32⟩
  | 5 => ⟨S10x512, .f32⟩
  | 6 => ⟨S10, .f32⟩
  | 7 => ⟨S1024x128, .f32⟩
  | 8 => ⟨S1024, .f32⟩
  | 9 => ⟨S1024x256, .f32⟩
  | 10 => ⟨S1024, .f32⟩
  | 11 => ⟨S1x256, .f32⟩
  | 12 => ⟨S1, .f32⟩
  | 13 => ⟨S32768x128, .f32⟩
  | 14 => ⟨S128x2048, .f32⟩
  | 15 => ⟨S32768x2048, .f32⟩
  | 16 => ⟨S1x2048, .f32⟩
  | 17 => ⟨S32768x2048, .f32⟩
  | 18 => ⟨S32768x2048, .f32⟩
  | 19 => ⟨S32768x512, .f32⟩
  | 20 => ⟨S32768x512, .f32⟩
  | 21 => ⟨S32768x512, .f32⟩
  | 22 => ⟨S32768x512, .f32⟩
  | 23 => ⟨S32768x512, .f32⟩
  | 24 => ⟨S32768x512, .f32⟩
  | 25 => ⟨S_, .f32⟩
  | 26 => ⟨S32768x512, .f32⟩
  | 27 => ⟨S32768x512, .f32⟩
  | 28 => ⟨S_, .f32⟩
  | 29 => ⟨S32768x512, .f32⟩
  | 30 => ⟨S32768x512, .f32⟩
  | 31 => ⟨S32768x512, .f32⟩
  | 32 => ⟨S32768x512, .f32⟩
  | 33 => ⟨S32768x512, .f32⟩
  | 34 => ⟨S32768x512, .f32⟩
  | 35 => ⟨S_, .f32⟩
  | 36 => ⟨S32768x512, .f32⟩
  | 37 => ⟨S32768x512, .f32⟩
  | 38 => ⟨S_, .f32⟩
  | 39 => ⟨S32768x512, .f32⟩
  | 40 => ⟨S32768x512, .f32⟩
  | 41 => ⟨S32768x512, .f32⟩
  | 42 => ⟨S32768x512, .f32⟩
  | 43 => ⟨S512x2048, .f32⟩
  | 44 => ⟨S32768x2048, .f32⟩
  | 45 => ⟨S1x2048, .f32⟩
  | 46 => ⟨S32768x2048, .f32⟩
  | 47 => ⟨S32768x2048, .f32⟩
  | 48 => ⟨S32768x512, .f32⟩
  | 49 => ⟨S32768x512, .f32⟩
  | 50 => ⟨S32768x512, .f32⟩
  | 51 => ⟨S32768x512, .f32⟩
  | 52 => ⟨S32768x512, .f32⟩
  | 53 => ⟨S32768x512, .f32⟩
  | 54 => ⟨S_, .f32⟩
  | 55 => ⟨S32768x512, .f32⟩
  | 56 => ⟨S32768x512, .f32⟩
  | 57 => ⟨S_, .f32⟩
  | 58 => ⟨S32768x512, .f32⟩
  | 59 => ⟨S32768x512, .f32⟩
  | 60 => ⟨S32768x512, .f32⟩
  | 61 => ⟨S32768x512, .f32⟩
  | 62 => ⟨S32768x512, .f32⟩
  | 63 => ⟨S32768x512, .f32⟩
  | 64 => ⟨S_, .f32⟩
  | 65 => ⟨S32768x512, .f32⟩
  | 66 => ⟨S32768x512, .f32⟩
  | 67 => ⟨S_, .f32⟩
  | 68 => ⟨S32768x512, .f32⟩
  | 69 => ⟨S32768x512, .f32⟩
  | 70 => ⟨S32768x512, .f32⟩
  | 71 => ⟨S32768x512, .f32⟩
  | 72 => ⟨S_, .f32⟩
  | 73 => ⟨S32768x512, .f32⟩
  | 74 => ⟨S32768x512, .f32⟩
  | 75 => ⟨S512x10, .f32⟩
  | 76 => ⟨S32768x10, .f32⟩
  | 77 => ⟨S1x10, .f32⟩
  | 78 => ⟨S32768x10, .f32⟩
  | 79 => ⟨S32768x10, .f32⟩
  | 80 => ⟨S_, .f32⟩
  | 81 => ⟨S32768, .f32⟩
  | 82 => ⟨S128x256, .f32⟩
  | 83 => ⟨S128x1024, .f32⟩
  | 84 => ⟨S32768x1024, .f32⟩
  | 85 => ⟨S1x1024, .f32⟩
  | 86 => ⟨S32768x1024, .f32⟩
  | 87 => ⟨S32768x1024, .f32⟩
  | 88 => ⟨S32768x256, .f32⟩
  | 89 => ⟨S32768x256, .f32⟩
  | 90 => ⟨S32768x256, .f32⟩
  | 91 => ⟨S32768x256, .f32⟩
  | 92 => ⟨S32768x256, .f32⟩
  | 93 => ⟨S32768x256, .f32⟩
  | 94 => ⟨S_, .f32⟩
  | 95 => ⟨S32768x256, .f32⟩
  | 96 => ⟨S32768x256, .f32⟩
  | 97 => ⟨S_, .f32⟩
  | 98 => ⟨S32768x256, .f32⟩
  | 99 => ⟨S32768x256, .f32⟩
  | 100 => ⟨S32768x256, .f32⟩
  | 101 => ⟨S32768x256, .f32⟩
  | 102 => ⟨S32768x256, .f32⟩
  | 103 => ⟨S32768x256, .f32⟩
  | 104 => ⟨S_, .f32⟩
  | 105 => ⟨S32768x256, .f32⟩
  | 106 => ⟨S32768x256, .f32⟩
  | 107 => ⟨S_, .f32⟩
  | 108 => ⟨S32768x256, .f32⟩
  | 109 => ⟨S32768x256, .f32⟩
  | 110 => ⟨S32768x256, .f32⟩
  | 111 => ⟨S32768x256, .f32⟩
  | 112 => ⟨S256x1024, .f32⟩
  | 113 => ⟨S32768x1024, .f32⟩
  | 114 => ⟨S1x1024, .f32⟩
  | 115 => ⟨S32768x1024, .f32⟩
  | 116 => ⟨S32768x1024, .f32⟩
  | 117 => ⟨S32768x256, .f32⟩
  | 118 => ⟨S32768x256, .f32⟩
  | 119 => ⟨S32768x256, .f32⟩
  | 120 => ⟨S32768x256, .f32⟩
  | 121 => ⟨S32768x256, .f32⟩
  | 122 => ⟨S32768x256, .f32⟩
  | 123 => ⟨S_, .f32⟩
  | 124 => ⟨S32768x256, .f32⟩
  | 125 => ⟨S32768x256, .f32⟩
  | 126 => ⟨S_, .f32⟩
  | 127 => ⟨S32768x256, .f32⟩
  | _ => ⟨S128x256x128, .f32⟩

abbrev hbmTy0_1 (i : Nat) : BufTy := match i % 128 with
  | 0 => ⟨S32768x256, .f32⟩
  | 1 => ⟨S32768x256, .f32⟩
  | 2 => ⟨S32768x256, .f32⟩
  | 3 => ⟨S32768x256, .f32⟩
  | 4 => ⟨S32768x256, .f32⟩
  | 5 => ⟨S_, .f32⟩
  | 6 => ⟨S32768x256, .f32⟩
  | 7 => ⟨S32768x256, .f32⟩
  | 8 => ⟨S_, .f32⟩
  | 9 => ⟨S32768x256, .f32⟩
  | 10 => ⟨S32768x256, .f32⟩
  | 11 => ⟨S32768x256, .f32⟩
  | 12 => ⟨S32768x256, .f32⟩
  | 13 => ⟨S_, .f32⟩
  | 14 => ⟨S32768x256, .f32⟩
  | 15 => ⟨S32768x256, .f32⟩
  | 16 => ⟨S256x1, .f32⟩
  | 17 => ⟨S32768x1, .f32⟩
  | 18 => ⟨S1x1, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x1, .f32⟩
  | 26 => ⟨S32768x1, .i1⟩
  | 27 => ⟨S32768x1, .f32⟩
  | 28 => ⟨S32768x1, .f32⟩
  | 29 => ⟨S32768x1, .f32⟩
  | 30 => ⟨S32768x1, .f32⟩
  | 31 => ⟨S32768x1, .f32⟩
  | 32 => ⟨S32768x1, .f32⟩
  | 33 => ⟨S32768x1, .f32⟩
  | 34 => ⟨S32768x1, .f32⟩
  | 35 => ⟨S128x256, .f32⟩
  | 36 => ⟨S_, .f32⟩
  | 37 => ⟨S128x256, .f32⟩
  | 38 => ⟨S128x256, .f32⟩
  | _ => ⟨S128x256x128, .f32⟩

abbrev hbmTy (i : Nat) : BufTy := match i / 128 with
  | 0 => hbmTy0_0 i
  | 1 => hbmTy0_1 i
  | _ => ⟨S128x256x128, .f32⟩

abbrev bufTy : (tb : Table) → Fin (tcTables nBuf tb) → BufTy
  | .hbm, ⟨i, _⟩ => hbmTy i
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_1 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_3 : Ref sig .tc := ⟨.hbm, 54, rfl⟩
abbrev main_v37 : Ref sig .tc := ⟨.hbm, 55, rfl⟩
abbrev main_v38 : Ref sig .tc := ⟨.hbm, 56, rfl⟩
abbrev main_cst_4 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call0_cst : Ref sig .tc := ⟨.hbm, 72, rfl⟩
abbrev main_call0_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_7 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_cst_8 : Ref sig .tc := ⟨.hbm, 94, rfl⟩
abbrev main_v70 : Ref sig .tc := ⟨.hbm, 95, rfl⟩
abbrev main_v71 : Ref sig .tc := ⟨.hbm, 96, rfl⟩
abbrev main_cst_9 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_10 : Ref sig .tc := ⟨.hbm, 104, rfl⟩
abbrev main_v78 : Ref sig .tc := ⟨.hbm, 105, rfl⟩
abbrev main_v79 : Ref sig .tc := ⟨.hbm, 106, rfl⟩
abbrev main_cst_11 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_cst_12 : Ref sig .tc := ⟨.hbm, 123, rfl⟩
abbrev main_v95 : Ref sig .tc := ⟨.hbm, 124, rfl⟩
abbrev main_v96 : Ref sig .tc := ⟨.hbm, 125, rfl⟩
abbrev main_cst_13 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_cst_14 : Ref sig .tc := ⟨.hbm, 133, rfl⟩
abbrev main_v103 : Ref sig .tc := ⟨.hbm, 134, rfl⟩
abbrev main_v104 : Ref sig .tc := ⟨.hbm, 135, rfl⟩
abbrev main_cst_15 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_call1_cst : Ref sig .tc := ⟨.hbm, 141, rfl⟩
abbrev main_call1_v0 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_call2_cst : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_v8 : Ref sig .tc := ⟨.hbm, 158, rfl⟩
abbrev main_call2_v9 : Ref sig .tc := ⟨.hbm, 159, rfl⟩
abbrev main_call2_v10 : Ref sig .tc := ⟨.hbm, 160, rfl⟩
abbrev main_call2_v11 : Ref sig .tc := ⟨.hbm, 161, rfl⟩
abbrev main_v115 : Ref sig .tc := ⟨.hbm, 162, rfl⟩
abbrev main_v116 : Ref sig .tc := ⟨.hbm, 163, rfl⟩
abbrev main_cst_16 : Ref sig .tc := ⟨.hbm, 164, rfl⟩
abbrev main_v117 : Ref sig .tc := ⟨.hbm, 165, rfl⟩
abbrev main_v118 : Ref sig .tc := ⟨.hbm, 166, rfl⟩

abbrev nD : Nat := 1
abbrev τ : Topo := Topo.v7x

variable {F : FTy → Type} [FloatOps F]

class Facts₀ : Prop where
  shapeCasts_S128x256x128_S32768x128 : S128x256x128.ShapeCasts S32768x128
  transposes_S2048x128_S128x2048_1_0 : S2048x128.Transposes [1, 0] S128x2048
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  slices_S32768x2048_S32768x512_0_0 : S32768x2048.Slices ![0, 0] S32768x512
  slices_S32768x2048_S32768x512_0_512 : S32768x2048.Slices ![0, 512] S32768x512
  slices_S32768x2048_S32768x512_0_1024 : S32768x2048.Slices ![0, 1024] S32768x512
  slices_S32768x2048_S32768x512_0_1536 : S32768x2048.Slices ![0, 1536] S32768x512
  bcast_S_S32768x512 : S_.BroadcastsInDim S32768x512 (![] : Fin 0 → Fin S32768x512.rank)
  transposes_S2048x512_S512x2048_1_0 : S2048x512.Transposes [1, 0] S512x2048
  transposes_S10x512_S512x10_1_0 : S10x512.Transposes [1, 0] S512x10
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  reducesTo_S32768x10_S32768_d1 : S32768x10.ReducesTo [1] S32768
  h_S_ : 0 < S_.numel
  shapeCasts_S32768_S128x256 : S32768.ShapeCasts S128x256
  transposes_S1024x128_S128x1024_1_0 : S1024x128.Transposes [1, 0] S128x1024
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  bcast_S_S32768x256 : S_.BroadcastsInDim S32768x256 (![] : Fin 0 → Fin S32768x256.rank)
  transposes_S1024x256_S256x1024_1_0 : S1024x256.Transposes [1, 0] S256x1024
  transposes_S1x256_S256x1_1_0 : S1x256.Transposes [1, 0] S256x1
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  shapeCasts_S32768x1_S128x256 : S32768x1.ShapeCasts S128x256
  bcast_S_S128x256 : S_.BroadcastsInDim S128x256 (![] : Fin 0 → Fin S128x256.rank)
  dot_S32768x128_S128x2048_S32768x2048_1_0_0_1_n_n_wf : DotDims.WF S32768x128 S128x2048 S32768x2048 [1] [0] [0] [1] [] []
  dot_S32768x512_S512x2048_S32768x2048_1_0_0_1_n_n_wf : DotDims.WF S32768x512 S512x2048 S32768x2048 [1] [0] [0] [1] [] []
  dot_S32768x512_S512x10_S32768x10_1_0_0_1_n_n_wf : DotDims.WF S32768x512 S512x10 S32768x10 [1] [0] [0] [1] [] []
  dot_S32768x128_S128x1024_S32768x1024_1_0_0_1_n_n_wf : DotDims.WF S32768x128 S128x1024 S32768x1024 [1] [0] [0] [1] [] []
  dot_S32768x256_S256x1024_S32768x1024_1_0_0_1_n_n_wf : DotDims.WF S32768x256 S256x1024 S32768x1024 [1] [0] [0] [1] [] []
  dot_S32768x256_S256x1_S32768x1_1_0_0_1_n_n_wf : DotDims.WF S32768x256 S256x1 S32768x1 [1] [0] [0] [1] [] []

variable [Facts₀]

def dot_S32768x128_S128x2048_S32768x2048_1_0_0_1_n_n : DotDims S32768x128 S128x2048 S32768x2048 where
  lhsContracting := [1]
  rhsContracting := [0]
  lhsNonContracting := [0]
  rhsNonContracting := [1]
  lhsBatch := []
  rhsBatch := []
  wf := dot_S32768x128_S128x2048_S32768x2048_1_0_0_1_n_n_wf
def dot_S32768x512_S512x2048_S32768x2048_1_0_0_1_n_n : DotDims S32768x512 S512x2048 S32768x2048 where
  lhsContracting := [1]
  rhsContracting := [0]
  lhsNonContracting := [0]
  rhsNonContracting := [1]
  lhsBatch := []
  rhsBatch := []
  wf := dot_S32768x512_S512x2048_S32768x2048_1_0_0_1_n_n_wf
def dot_S32768x512_S512x10_S32768x10_1_0_0_1_n_n : DotDims S32768x512 S512x10 S32768x10 where
  lhsContracting := [1]
  rhsContracting := [0]
  lhsNonContracting := [0]
  rhsNonContracting := [1]
  lhsBatch := []
  rhsBatch := []
  wf := dot_S32768x512_S512x10_S32768x10_1_0_0_1_n_n_wf
def dot_S32768x128_S128x1024_S32768x1024_1_0_0_1_n_n : DotDims S32768x128 S128x1024 S32768x1024 where
  lhsContracting := [1]
  rhsContracting := [0]
  lhsNonContracting := [0]
  rhsNonContracting := [1]
  lhsBatch := []
  rhsBatch := []
  wf := dot_S32768x128_S128x1024_S32768x1024_1_0_0_1_n_n_wf
def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf

class Facts : Prop extends Facts₀ where

variable [Facts]
-- ==== Proof.Spec.lean ====
/-
  What both programs compute, as mathematics on extended reals, with no program in sight.

  Every output entry depends on ONE row `x` of the flattened input (128 features). Each of the two heads sends the row
  through two gated layers started from the zero state and a rectifier, then through a last dense layer:
    * a dense layer is `y_j = (∑ k, x_k · w_{j,k}) + b_j`;
    * a gated layer of width `H` reads `4H` pre-activations as four consecutive groups (input, forget, candidate,
      output). From the zero state the forget group is never read, the cell state is `σ(input) · tanh(candidate)` and the
      layer's value is `σ(output) · tanh(cell state)`, with `σ z = 1 / (1 + e^(-z))`;
    * the mean head sums its 10 last-layer values; the scale head applies `softplus` to its one last-layer value, in the
      form `max z 0 + log(1 + e^(-|z|))`, and adds a fixed positive constant.
-/
import Idealize.ShloMosaic.PureOps.Ideal
import Idealize.ShloMosaic.PureOps.Ideal.Laws
import Idealize.ShloMosaic.Lib.ValueIdx
import Idealize.ShloMosaic.Lib.IdealHost

noncomputable section

namespace Cert.TwoHeads

open Idealize.ShloMosaic Idealize.ShloMosaic.ValueIdx

/-! ## Layers -/

/-- The weighted sums of a row: `w j k` is the weight from input `k` to output `j`. -/
def dot {K J : ℕ} (w : Fin J → Fin K → EReal) (x : Fin K → EReal) (j : Fin J) : EReal := ∑ k : Fin K, x k * w j k

/-- A dense layer: the weighted sums plus the bias. -/
def lin {K J : ℕ} (w : Fin J → Fin K → EReal) (b : Fin J → EReal) (x : Fin K → EReal) (j : Fin J) : EReal :=
  dot w x j + b j

/-- One unit of a gated layer started from the zero state, from its input, candidate and output pre-activations. -/
def gate (i g o : EReal) : EReal := Ideal.logistic o * Ideal.tanh (Ideal.logistic i * Ideal.tanh g)

/-- A gated layer of width 512 over its 2048 pre-activations: the groups start at 0, 512, 1024 and 1536. -/
def cell512 (pre : Fin 2048 → EReal) (j : Fin 512) : EReal :=
  gate (pre ⟨0 + j.val, by omega⟩) (pre ⟨1024 + j.val, by omega⟩) (pre ⟨1536 + j.val, by omega⟩)

/-- A gated layer of width 256 over its 1024 pre-activations: the groups start at 0, 256, 512 and 768. -/
def cell256 (pre : Fin 1024 → EReal) (j : Fin 256) : EReal :=
  gate (pre ⟨0 + j.val, by omega⟩) (pre ⟨512 + j.val, by omega⟩) (pre ⟨768 + j.val, by omega⟩)

/-- The rectifier. -/
def relu (z : EReal) : EReal := max z 0

/-- `log (1 + e^z)` in the form that does not overflow: `max z 0 + log (1 + e^(-|z|))` (`|z|` written `max z (-z)`,
    and `z` written `z - 0` where the programs subtract the second argument of a two-argument `logaddexp`). -/
def softplus (z : EReal) : EReal := max z 0 + Ideal.log1p (Ideal.exp (-(max (z - 0) (-(z - 0)))))

/-! ## The two heads, of one input row -/

/-- The mean head: two gated layers of width 512, the rectifier, a dense layer to 10 values, their sum. -/
def meanHead (w0 : Fin 2048 → Fin 128 → EReal) (b0 : Fin 2048 → EReal) (w1 : Fin 2048 → Fin 512 → EReal) (b1 : Fin 2048 → EReal)
    (wa : Fin 10 → Fin 512 → EReal) (ba : Fin 10 → EReal) (x : Fin 128 → EReal) : EReal :=
  ∑ j : Fin 10, lin wa ba (fun k => relu (cell512 (lin w1 b1 (cell512 (lin w0 b0 x))) k)) j

/-- The scale head before its last two steps: two gated layers of width 256, the rectifier, a dense layer to one value. -/
def scalePre (v0 : Fin 1024 → Fin 128 → EReal) (c0 : Fin 1024 → EReal) (v1 : Fin 1024 → Fin 256 → EReal) (c1 : Fin 1024 → EReal)
    (wn : Fin 1 → Fin 256 → EReal) (bn : Fin 1 → EReal) (x : Fin 128 → EReal) : EReal :=
  lin wn bn (fun k => relu (cell256 (lin v1 c1 (cell256 (lin v0 c0 x))) k)) (0 : Fin 1)

/-- The scale head: `softplus` of that value plus the f32 number nearest to one millionth. -/
def scaleHead (v0 : Fin 1024 → Fin 128 → EReal) (c0 : Fin 1024 → EReal) (v1 : Fin 1024 → Fin 256 → EReal) (c1 : Fin 1024 → EReal)
    (wn : Fin 1 → Fin 256 → EReal) (bn : Fin 1 → EReal) (x : Fin 128 → EReal) : EReal :=
  softplus (scalePre v0 c0 v1 c1 wn bn x) + Ideal.ofBits .f32 0x358637BD#32

/-! ## Rows of the input -/

/-- Row `n` of the `[128, 256, 128]` input flattened to `[32768, 128]`: entry `(n / 256, n % 256, ·)`. -/
def row (X : (⟨3, ![128, 256, 128]⟩ : Shape).Idx → EReal) (n : Fin 32768) (k : Fin 128) : EReal :=
  X (ix3 (⟨n.val / 256, by omega⟩ : Fin 128) (⟨n.val % 256, by omega⟩ : Fin 256) k)

/-- The flattened row number of entry `(a, b)` of a `[128, 256]` result. -/
def flat (a : Fin 128) (b : Fin 256) : Fin 32768 := ⟨a.val * 256 + b.val, by omega⟩

/-- A `[J, K]` weight array as the weight from input `k` to output `j`. -/
def mat {J K : ℕ} (W : (⟨2, ![J, K]⟩ : Shape).Idx → EReal) (j : Fin J) (k : Fin K) : EReal := W (ix2 j k)

/-- A `[J]` bias array as the bias of output `j`. -/
def vec {J : ℕ} (B : (⟨1, ![J]⟩ : Shape).Idx → EReal) (j : Fin J) : EReal := B (ix1 j)

/-! ## The two results, as whole `[128, 256]` arrays of the thirteen argument arrays -/

/-- The means: entry `(a, b)` is the mean head of row `256 a + b`. -/
def G0 (X : (⟨3, ![128, 256, 128]⟩ : Shape).Idx → EReal)
    (W0 : (⟨2, ![2048, 128]⟩ : Shape).Idx → EReal) (B0 : (⟨1, ![2048]⟩ : Shape).Idx → EReal)
    (W1 : (⟨2, ![2048, 512]⟩ : Shape).Idx → EReal) (B1 : (⟨1, ![2048]⟩ : Shape).Idx → EReal)
    (Wa : (⟨2, ![10, 512]⟩ : Shape).Idx → EReal) (Ba : (⟨1, ![10]⟩ : Shape).Idx → EReal) :
    (⟨2, ![128, 256]⟩ : Shape).Idx → EReal :=
  fun i => meanHead (mat W0) (vec B0) (mat W1) (vec B1) (mat Wa) (vec Ba) (row X (flat (i 0) (i 1)))

/-- The scales: entry `(a, b)` is the scale head of row `256 a + b`. -/
def G1 (X : (⟨3, ![128, 256, 128]⟩ : Shape).Idx → EReal)
    (V0 : (⟨2, ![1024, 128]⟩ : Shape).Idx → EReal) (C0 : (⟨1, ![1024]⟩ : Shape).Idx → EReal)
    (V1 : (⟨2, ![1024, 256]⟩ : Shape).Idx → EReal) (C1 : (⟨1, ![1024]⟩ : Shape).Idx → EReal)
    (Wn : (⟨2, ![1, 256]⟩ : Shape).Idx → EReal) (Bn : (⟨1, ![1]⟩ : Shape).Idx → EReal) :
    (⟨2, ![128, 256]⟩ : Shape).Idx → EReal :=
  fun i => scaleHead (mat V0) (vec C0) (mat V1) (vec C1) (mat Wn) (vec Bn) (row X (flat (i 0) (i 1)))

/-! ## The two spellings of the logistic function and of `softplus`, one scalar at a time -/

/-- The f32 word of `1.0`, as the instance's constant. -/
theorem one_word : FloatOps.ofBits (F := Ideal) .f32 0x3F800000#32 = (1 : EReal) := Ideal.ofBits_one_f32

/-- The f32 word of `0.0`, as a scalar constant of the instance. -/
theorem zero_word : (Scalar.ofBits (F := Ideal) .f32 0x00000000#32 : Ideal .f32) = (0 : EReal) := Ideal.ofBits_zero_f32

/-- `1 / (1 + e^(-z))` written with the host's quotient, exponential and negation is the logistic function. -/
theorem logistic_host (z : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf z)))
      = Ideal.logistic z := by
  rw [one_word]; rfl

/-- A comparison of a value with itself for "not equal" is false, ordered or not: the extended reals have no NaN. -/
theorem cmp_one_self (a : EReal) : Ideal.cmp .one a a = 0#1 := by simp [Ideal.cmp]
theorem cmp_une_self (a : EReal) : Ideal.cmp .une a a = 0#1 := by simp [Ideal.cmp]

/-- The kernel's `softplus`: the NaN guard never fires, and `0 - |d|` is `-|d|`. -/
theorem softplus_kernel (z : Ideal .f32) :
    Scalar.select (FloatOps.cmpf .one (FloatOps.subf z (Scalar.ofBits .f32 0x00000000#32)) (FloatOps.subf z (Scalar.ofBits .f32 0x00000000#32)))
      (FloatOps.addf z (Scalar.ofBits .f32 0x00000000#32))
      (FloatOps.addf (FloatOps.maximumf z (Scalar.ofBits .f32 0x00000000#32))
        (FloatOps.log1p (FloatOps.exp (FloatOps.subf (Scalar.ofBits .f32 0x00000000#32)
          (FloatOps.absf (FloatOps.subf z (Scalar.ofBits .f32 0x00000000#32)))))))
      = softplus z := by
  have hz : (Scalar.ofBits (F := Ideal) .f32 0x00000000#32 : Ideal .f32) = (0 : EReal) := Ideal.ofBits_zero_f32
  rw [hz]
  show Scalar.select (Ideal.cmp .one (z - 0) (z - 0)) (z + 0)
    (max z 0 + Ideal.log1p (Ideal.exp (0 - max (z - 0) (-(z - 0))))) = softplus z
  rw [cmp_one_self, select_zero, zero_sub]; rfl

/-- The reference's `softplus`: the same, with the host's negation. -/
theorem softplus_host (z : Ideal .f32) :
    Scalar.select (FloatOps.cmpf .une (FloatOps.subf z (FloatOps.ofBits (F := Ideal) .f32 0x00000000#32)) (FloatOps.subf z (FloatOps.ofBits (F := Ideal) .f32 0x00000000#32)))
      (FloatOps.addf z (FloatOps.ofBits (F := Ideal) .f32 0x00000000#32))
      (FloatOps.addf (FloatOps.maximumf z (FloatOps.ofBits (F := Ideal) .f32 0x00000000#32))
        (FloatOps.hostUnary .log1p (FloatOps.hostUnary .exp (FloatOps.hostNegf
          (FloatOps.hostAbsf (FloatOps.subf z (FloatOps.ofBits (F := Ideal) .f32 0x00000000#32)))))))
      = softplus z := by
  have hz : FloatOps.ofBits (F := Ideal) .f32 0x00000000#32 = (0 : EReal) := Ideal.ofBits_zero_f32
  rw [hz]
  show Scalar.select (Ideal.cmp .une (z - 0) (z - 0)) (z + 0)
    (max z 0 + Ideal.log1p (Ideal.exp (-(max (z - 0) (-(z - 0)))))) = softplus z
  rw [cmp_une_self, select_zero]; rfl

end Cert.TwoHeads

end
-- ==== Proof.RefMean.lean ====
/-
  The reference's mean head, stage by stage, is the specification's: its first dense layer at `(n, j)` is the dense
  layer of row `n` of the flattened input; its logistic function spelt `1 / (1 + e^(-z))` is the logistic function; a
  column slice of the pre-activations at offset `o` is the gate group that starts at `o`; and so on down to the sum of
  the ten last-layer values, reshaped from `[32768]` to `[128, 256]`.
-/
import proofs.«115941_j82669530513626_1_alg».proof.Proof.Gen.ReferenceIdeal.Read
import proofs.«115941_j82669530513626_1_alg».proof.Proof.Spec

noncomputable section

namespace Cert.RefMean

open Cert.ReferenceIdeal Cert.ReferenceIdeal.Read Cert.TwoHeads Idealize.ShloMosaic Idealize.ShloMosaic.ValueIdx

variable (x0 : (⟨S128x256x128, .f32⟩ : BufTy).Contents (Elt Ideal)) (x1 : (⟨S2048x128, .f32⟩ : BufTy).Contents (Elt Ideal))
  (x2 : (⟨S2048, .f32⟩ : BufTy).Contents (Elt Ideal)) (x3 : (⟨S2048x512, .f32⟩ : BufTy).Contents (Elt Ideal))
  (x4 : (⟨S2048, .f32⟩ : BufTy).Contents (Elt Ideal)) (x5 : (⟨S10x512, .f32⟩ : BufTy).Contents (Elt Ideal))
  (x6 : (⟨S10, .f32⟩ : BufTy).Contents (Elt Ideal))

/-- The first pre-activations: entry `(n, j)` is the dense layer of row `n`. -/
theorem pre0 (n : Fin 32768) (j : Fin 2048) :
    val_main_v5 (F := Ideal) x0 x1 x2 (ix2 n j) = lin (mat x1) (vec x2) (row x0 n) j := by
  rw [val_main_v5_apply, val_main_v2_apply, val_main_v4_apply, val_main_v3_apply]
  show _ + _ = (∑ k : Fin 128, row x0 n k * mat x1 j k) + vec x2 j
  refine congrArg₂ (· + ·) (Finset.sum_congr rfl fun k _ => ?_) ?_
  · rw [val_main_v0_apply, val_main_v1_apply]
    refine congrArg₂ (· * ·) (congrArg x0 ?_) (congrArg x1 ?_)
    · funext a; apply Fin.ext
      match a with
      | ⟨0, _⟩ => show (n.val * 128 + k.val) / 32768 = n.val / 256; omega
      | ⟨1, _⟩ => show (n.val * 128 + k.val) / 128 % 256 = n.val % 256; omega
      | ⟨2, _⟩ => show (n.val * 128 + k.val) % 128 = k.val; omega
    · funext a; apply Fin.ext
      match a with
      | ⟨0, _⟩ => rfl
      | ⟨1, _⟩ => rfl
  · exact congrArg x2 (funext fun a => Fin.ext (by match a with | ⟨0, _⟩ => rfl))

/-- The first gated layer. -/
theorem h0 (n : Fin 32768) (j : Fin 512) :
    val_main_v25 (F := Ideal) x0 x1 x2 (ix2 n j) = cell512 (lin (mat x1) (vec x2) (row x0 n)) j := by
  simp only [val_main_v25_apply, val_main_v23_apply, val_main_v22_apply, val_main_cst_2_apply, val_main_v21_apply,
    val_main_v20_apply, val_main_cst_1_apply, val_main_v19_apply, val_main_v18_apply, val_main_v9_apply, val_main_v24_apply,
    val_main_v17_apply, val_main_v15_apply, val_main_v14_apply, val_main_cst_0_apply, val_main_v13_apply, val_main_v12_apply,
    val_main_cst_apply, val_main_v11_apply, val_main_v10_apply, val_main_v6_apply, val_main_v16_apply, val_main_v8_apply]
  have e6 : idx_main_v6 (ix2 n j) = ix2 n (⟨0 + j.val, by omega⟩ : Fin 2048) :=
    funext fun a => Fin.ext (by match a with | ⟨0, _⟩ => rfl | ⟨1, _⟩ => exact (Nat.zero_add _).symm)
  have e8 : idx_main_v8 (ix2 n j) = ix2 n (⟨1024 + j.val, by omega⟩ : Fin 2048) :=
    funext fun a => Fin.ext (by match a with | ⟨0, _⟩ => rfl | ⟨1, _⟩ => rfl)
  have e9 : idx_main_v9 (ix2 n j) = ix2 n (⟨1536 + j.val, by omega⟩ : Fin 2048) :=
    funext fun a => Fin.ext (by match a with | ⟨0, _⟩ => rfl | ⟨1, _⟩ => rfl)
  rw [e6, e8, e9, pre0, pre0, pre0]
  simp only [logistic_host]
  rfl

/-- The second pre-activations: the dense layer of the first gated layer's row. -/
theorem pre1 (n : Fin 32768) (j : Fin 2048) :
    val_main_v30 (F := Ideal) x0 x1 x2 x3 x4 (ix2 n j)
      = lin (mat x3) (vec x4) (cell512 (lin (mat x1) (vec x2) (row x0 n))) j := by
  rw [val_main_v30_apply, val_main_v27_apply, val_main_v29_apply, val_main_v28_apply]
  show _ + _ = (∑ k : Fin 512, cell512 (lin (mat x1) (vec x2) (row x0 n)) k * mat x3 j k) + vec x4 j
  refine congrArg₂ (· + ·) (Finset.sum_congr rfl fun k _ => ?_) ?_
  · have el : lidx_main_v27 (ix2 n j) k = ix2 n k :=
      funext fun a => Fin.ext (by match a with | ⟨0, _⟩ => rfl | ⟨1, _⟩ => rfl)
    rw [el, h0, val_main_v26_apply]
    exact congrArg (_ * ·) (congrArg x3 (funext fun a => Fin.ext (by match a with | ⟨0, _⟩ => rfl | ⟨1, _⟩ => rfl)))
  · exact congrArg x4 (funext fun a => Fin.ext (by match a with | ⟨0, _⟩ => rfl))

/-- The second gated layer. -/
theorem h1 (n : Fin 32768) (j : Fin 512) :
    val_main_v50 (F := Ideal) x0 x1 x2 x3 x4 (ix2 n j)
      = cell512 (lin (mat x3) (vec x4) (cell512 (lin (mat x1) (vec x2) (row x0 n)))) j := by
  simp only [val_main_v50_apply, val_main_v48_apply, val_main_v47_apply, val_main_cst_6_apply, val_main_v46_apply,
    val_main_v45_apply, val_main_cst_5_apply, val_main_v44_apply, val_main_v43_apply, val_main_v34_apply, val_main_v49_apply,
    val_main_v42_apply, val_main_v40_apply, val_main_v39_apply, val_main_cst_4_apply, val_main_v38_apply, val_main_v37_apply,
    val_main_cst_3_apply, val_main_v36_apply, val_main_v35_apply, val_main_v31_apply, val_main_v41_apply, val_main_v33_apply]
  have e31 : idx_main_v31 (ix2 n j) = ix2 n (⟨0 + j.val, by omega⟩ : Fin 2048) :=
    funext fun a => Fin.ext (by match a with | ⟨0, _⟩ => rfl | ⟨1, _⟩ => exact (Nat.zero_add _).symm)
  have e33 : idx_main_v33 (ix2 n j) = ix2 n (⟨1024 + j.val, by omega⟩ : Fin 2048) :=
    funext fun a => Fin.ext (by match a with | ⟨0, _⟩ => rfl | ⟨1, _⟩ => rfl)
  have e34 : idx_main_v34 (ix2 n j) = ix2 n (⟨1536 + j.val, by omega⟩ : Fin 2048) :=
    funext fun a => Fin.ext (by match a with | ⟨0, _⟩ => rfl | ⟨1, _⟩ => rfl)
  rw [e31, e33, e34, pre1, pre1, pre1]
  simp only [logistic_host]
  rfl

/-- The rectified second layer. -/
theorem hr (n : Fin 32768) (j : Fin 512) :
    val_main_v51 (F := Ideal) x0 x1 x2 x3 x4 (ix2 n j)
      = relu (cell512 (lin (mat x3) (vec x4) (cell512 (lin (mat x1) (vec x2) (row x0 n)))) j) := by
  rw [val_main_v51_apply, val_main_call0_v0_apply, val_main_call0_cst_apply, h1]
  show max _ (Ideal.ofBits .f32 0x00000000#32) = max _ 0
  rw [Ideal.ofBits_zero_f32]

/-- The ten last-layer values of a row. -/
theorem aff (n : Fin 32768) (j : Fin 10) :
    val_main_v56 (F := Ideal) x0 x1 x2 x3 x4 x5 x6 (ix2 n j)
      = lin (mat x5) (vec x6)
          (fun k => relu (cell512 (lin (mat x3) (vec x4) (cell512 (lin (mat x1) (vec x2) (row x0 n)))) k)) j := by
  rw [val_main_v56_apply, val_main_v53_apply, val_main_v55_apply, val_main_v54_apply]
  show _ + _ = (∑ k : Fin 512, relu (cell512 (lin (mat x3) (vec x4) (cell512 (lin (mat x1) (vec x2) (row x0 n)))) k)
      * mat x5 j k) + vec x6 j
  refine congrArg₂ (· + ·) (Finset.sum_congr rfl fun k _ => ?_) ?_
  · have el : lidx_main_v53 (ix2 n j) k = ix2 n k :=
      funext fun a => Fin.ext (by match a with | ⟨0, _⟩ => rfl | ⟨1, _⟩ => rfl)
    rw [el, hr, val_main_v52_apply]
    exact congrArg (_ * ·) (congrArg x5 (funext fun a => Fin.ext (by match a with | ⟨0, _⟩ => rfl | ⟨1, _⟩ => rfl)))
  · exact congrArg x6 (funext fun a => Fin.ext (by match a with | ⟨0, _⟩ => rfl))

/-- The reference's first result is the array of means. -/
theorem mean_eq : val_main_v58 (F := Ideal) x0 x1 x2 x3 x4 x5 x6 = G0 x0 x1 x2 x3 x4 x5 x6 := by
  funext i
  obtain ⟨a, b, rfl⟩ : ∃ (a : Fin 128) (b : Fin 256), i = ix2 a b := ⟨i 0, i 1, eq_ix2 i⟩
  rw [val_main_v58_apply, val_main_v57_apply, val_main_cst_7_apply]
  have e : idx_main_v58 (ix2 a b) = ix1 (flat a b) := funext fun d => Fin.ext (by match d with | ⟨0, _⟩ => rfl)
  rw [e]
  show Ideal.ofBits .f32 0x00000000#32 + _ = meanHead (mat x1) (vec x2) (mat x3) (vec x4) (mat x5) (vec x6) (row x0 (flat a b))
  rw [Ideal.ofBits_zero_f32, zero_add]
  refine Finset.sum_congr rfl fun k _ => ?_
  have ek : idx_main_v57 (ix1 (flat a b)) k = ix2 (flat a b) k :=
    funext fun d => Fin.ext (by match d with | ⟨0, _⟩ => rfl | ⟨1, _⟩ => rfl)
  rw [ek, aff]

end Cert.RefMean

end
-- ==== Proof.RefScale.lean ====
/-
  The reference's scale head, stage by stage, is the specification's: two gated layers of width 256 over row `n` of the
  flattened input (gate groups at columns 0, 512 and 768 of the 1024 pre-activations), the rectifier, one dense value,
  `softplus` of it in the two-argument `logaddexp` form whose NaN guard never fires on extended reals, the reshape from
  `[32768, 1]` to `[128, 256]`, and the added constant.
-/
import proofs.«115941_j82669530513626_1_alg».proof.Proof.Gen.ReferenceIdeal.Read
import proofs.«115941_j82669530513626_1_alg».proof.Proof.Spec

noncomputable section

namespace Cert.RefScale

open Cert.ReferenceIdeal Cert.ReferenceIdeal.Read Cert.TwoHeads Idealize.ShloMosaic Idealize.ShloMosaic.ValueIdx

variable (x0 : (⟨S128x256x128, .f32⟩ : BufTy).Contents (Elt Ideal)) (x7 : (⟨S1024x128, .f32⟩ : BufTy).Contents (Elt Ideal))
  (x8 : (⟨S1024, .f32⟩ : BufTy).Contents (Elt Ideal)) (x9 : (⟨S1024x256, .f32⟩ : BufTy).Contents (Elt Ideal))
  (x10 : (⟨S1024, .f32⟩ : BufTy).Contents (Elt Ideal)) (x11 : (⟨S1x256, .f32⟩ : BufTy).Contents (Elt Ideal))
  (x12 : (⟨S1, .f32⟩ : BufTy).Contents (Elt Ideal))

/-- The first pre-activations: entry `(n, j)` is the dense layer of row `n`. -/
theorem pre0 (n : Fin 32768) (j : Fin 1024) :
    val_main_v63 (F := Ideal) x0 x7 x8 (ix2 n j) = lin (mat x7) (vec x8) (row x0 n) j := by
  rw [val_main_v63_apply, val_main_v60_apply, val_main_v62_apply, val_main_v61_apply]
  show _ + _ = (∑ k : Fin 128, row x0 n k * mat x7 j k) + vec x8 j
  refine congrArg₂ (· + ·) (Finset.sum_congr rfl fun k _ => ?_) ?_
  · rw [val_main_v0_apply, val_main_v59_apply]
    refine congrArg₂ (· * ·) (congrArg x0 ?_) (congrArg x7 ?_)
    · funext a; apply Fin.ext
      match a with
      | ⟨0, _⟩ => show (n.val * 128 + k.val) / 32768 = n.val / 256; omega
      | ⟨1, _⟩ => show (n.val * 128 + k.val) / 128 % 256 = n.val % 256; omega
      | ⟨2, _⟩ => show (n.val * 128 + k.val) % 128 = k.val; omega
    · funext a; apply Fin.ext
      match a with
      | ⟨0, _⟩ => rfl
      | ⟨1, _⟩ => rfl
  · exact congrArg x8 (funext fun a => Fin.ext (by match a with | ⟨0, _⟩ => rfl))

/-- The first gated layer. -/
theorem h0 (n : Fin 32768) (j : Fin 256) :
    val_main_v83 (F := Ideal) x0 x7 x8 (ix2 n j) = cell256 (lin (mat x7) (vec x8) (row x0 n)) j := by
  simp only [val_main_v83_apply, val_main_v81_apply, val_main_v80_apply, val_main_cst_11_apply, val_main_v79_apply,
    val_main_v78_apply, val_main_cst_10_apply, val_main_v77_apply, val_main_v76_apply, val_main_v67_apply, val_main_v82_apply,
    val_main_v75_apply, val_main_v73_apply, val_main_v72_apply, val_main_cst_9_apply, val_main_v71_apply, val_main_v70_apply,
    val_main_cst_8_apply, val_main_v69_apply, val_main_v68_apply, val_main_v64_apply, val_main_v74_apply, val_main_v66_apply]
  have e64 : idx_main_v64 (ix2 n j) = ix2 n (⟨0 + j.val, by omega⟩ : Fin 1024) :=
    funext fun a => Fin.ext (by match a with | ⟨0, _⟩ => rfl | ⟨1, _⟩ => exact (Nat.zero_add _).symm)
  have e66 : idx_main_v66 (ix2 n j) = ix2 n (⟨512 + j.val, by omega⟩ : Fin 1024) :=
    funext fun a => Fin.ext (by match a with | ⟨0, _⟩ => rfl | ⟨1, _⟩ => rfl)
  have e67 : idx_main_v67 (ix2 n j) = ix2 n (⟨768 + j.val, by omega⟩ : Fin 1024) :=
    funext fun a => Fin.ext (by match a with | ⟨0, _⟩ => rfl | ⟨1, _⟩ => rfl)
  rw [e64, e66, e67, pre0, pre0, pre0]
  simp only [logistic_host]
  rfl

/-- The second pre-activations: the dense layer of the first gated layer's row. -/
theorem pre1 (n : Fin 32768) (j : Fin 1024) :
    val_main_v88 (F := Ideal) x0 x7 x8 x9 x10 (ix2 n j)
      = lin (mat x9) (vec x10) (cell256 (lin (mat x7) (vec x8) (row x0 n))) j := by
  rw [val_main_v88_apply, val_main_v85_apply, val_main_v87_apply, val_main_v86_apply]
  show _ + _ = (∑ k : Fin 256, cell256 (lin (mat x7) (vec x8) (row x0 n)) k * mat x9 j k) + vec x10 j
  refine congrArg₂ (· + ·) (Finset.sum_congr rfl fun k _ => ?_) ?_
  · have el : lidx_main_v85 (ix2 n j) k = ix2 n k :=
      funext fun a => Fin.ext (by match a with | ⟨0, _⟩ => rfl | ⟨1, _⟩ => rfl)
    rw [el, h0, val_main_v84_apply]
    exact congrArg (_ * ·) (congrArg x9 (funext fun a => Fin.ext (by match a with | ⟨0, _⟩ => rfl | ⟨1, _⟩ => rfl)))
  · exact congrArg x10 (funext fun a => Fin.ext (by match a with | ⟨0, _⟩ => rfl))

/-- The second gated layer. -/
theorem h1 (n : Fin 32768) (j : Fin 256) :
    val_main_v108 (F := Ideal) x0 x7 x8 x9 x10 (ix2 n j)
      = cell256 (lin (mat x9) (vec x10) (cell256 (lin (mat x7) (vec x8) (row x0 n)))) j := by
  simp only [val_main_v108_apply, val_main_v106_apply, val_main_v105_apply, val_main_cst_15_apply, val_main_v104_apply,
    val_main_v103_apply, val_main_cst_14_apply, val_main_v102_apply, val_main_v101_apply, val_main_v92_apply, val_main_v107_apply,
    val_main_v100_apply, val_main_v98_apply, val_main_v97_apply, val_main_cst_13_apply, val_main_v96_apply, val_main_v95_apply,
    val_main_cst_12_apply, val_main_v94_apply, val_main_v93_apply, val_main_v89_apply, val_main_v99_apply, val_main_v91_apply]
  have e89 : idx_main_v89 (ix2 n j) = ix2 n (⟨0 + j.val, by omega⟩ : Fin 1024) :=
    funext fun a => Fin.ext (by match a with | ⟨0, _⟩ => rfl | ⟨1, _⟩ => exact (Nat.zero_add _).symm)
  have e91 : idx_main_v91 (ix2 n j) = ix2 n (⟨512 + j.val, by omega⟩ : Fin 1024) :=
    funext fun a => Fin.ext (by match a with | ⟨0, _⟩ => rfl | ⟨1, _⟩ => rfl)
  have e92 : idx_main_v92 (ix2 n j) = ix2 n (⟨768 + j.val, by omega⟩ : Fin 1024) :=
    funext fun a => Fin.ext (by match a with | ⟨0, _⟩ => rfl | ⟨1, _⟩ => rfl)
  rw [e89, e91, e92, pre1, pre1, pre1]
  simp only [logistic_host]
  rfl

/-- The rectified second layer. -/
theorem hr (n : Fin 32768) (j : Fin 256) :
    val_main_v109 (F := Ideal) x0 x7 x8 x9 x10 (ix2 n j)
      = relu (cell256 (lin (mat x9) (vec x10) (cell256 (lin (mat x7) (vec x8) (row x0 n)))) j) := by
  rw [val_main_v109_apply, val_main_call1_v0_apply, val_main_call1_cst_apply, h1]
  show max _ (Ideal.ofBits .f32 0x00000000#32) = max _ 0
  rw [Ideal.ofBits_zero_f32]

/-- The one last-layer value of a row. -/
theorem pre2 (n : Fin 32768) (u : Fin 1) :
    val_main_v114 (F := Ideal) x0 x7 x8 x9 x10 x11 x12 (ix2 n u)
      = scalePre (mat x7) (vec x8) (mat x9) (vec x10) (mat x11) (vec x12) (row x0 n) := by
  obtain rfl : u = 0 := Subsingleton.elim _ _
  rw [val_main_v114_apply, val_main_v111_apply, val_main_v113_apply, val_main_v112_apply]
  show _ + _ = (∑ k : Fin 256, relu (cell256 (lin (mat x9) (vec x10) (cell256 (lin (mat x7) (vec x8) (row x0 n)))) k)
      * mat x11 (0 : Fin 1) k) + vec x12 (0 : Fin 1)
  refine congrArg₂ (· + ·) (Finset.sum_congr rfl fun k _ => ?_) ?_
  · have el : lidx_main_v111 (ix2 n (0 : Fin 1)) k = ix2 n k :=
      funext fun a => Fin.ext (by match a with | ⟨0, _⟩ => rfl | ⟨1, _⟩ => rfl)
    rw [el, hr, val_main_v110_apply]
    exact congrArg (_ * ·) (congrArg x11 (funext fun a => Fin.ext (by match a with | ⟨0, _⟩ => rfl | ⟨1, _⟩ => rfl)))
  · exact congrArg x12 (funext fun a => Fin.ext (by match a with | ⟨0, _⟩ => rfl))

/-- The reference's second result is the array of scales. -/
theorem scale_eq : val_main_v118 (F := Ideal) x0 x7 x8 x9 x10 x11 x12 = G1 x0 x7 x8 x9 x10 x11 x12 := by
  funext i
  obtain ⟨a, b, rfl⟩ : ∃ (a : Fin 128) (b : Fin 256), i = ix2 a b := ⟨i 0, i 1, eq_ix2 i⟩
  simp only [val_main_v118_apply, val_main_v116_apply, val_main_v115_apply, val_main_call2_v4_apply, val_main_call2_v3_apply,
    val_main_call2_v2_apply, val_main_call2_cst_apply, val_main_call2_v6_apply, val_main_call2_v5_apply,
    val_main_call2_v11_apply, val_main_call2_v1_apply, val_main_call2_v0_apply, val_main_call2_v10_apply,
    val_main_call2_v9_apply, val_main_call2_v8_apply, val_main_call2_v7_apply, val_main_v117_apply, val_main_cst_16_apply]
  have e : idx_main_v116 (ix2 a b) = ix2 (flat a b) (0 : Fin 1) :=
    funext fun d => Fin.ext (by
      match d with
      | ⟨0, _⟩ => exact Nat.div_one _
      | ⟨1, _⟩ => rfl)
  rw [e, pre2, softplus_host]
  rfl

end Cert.RefScale

end
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.KerMean.lean ====
/-
  The kernel's mean head on one block of 512 rows. Seen by its rows, every step of the body is a step of the
  specification on row `p` of the block: a product with a weight block held transposed plus a bias held as one row is a
  dense layer; the three column slices of the 2048 pre-activations at 0, 1024 and 1536 are the input, candidate and
  output gate groups; the maximum with the zero splat is the rectifier; and the sum over the ten columns of the last
  layer, kept as a one-column block, is the mean head.
-/
import proofs.«115941_j82669530513626_1_alg».proof.Proof.Gen.KernelIdeal.Skeleton
import proofs.«115941_j82669530513626_1_alg».proof.Proof.Spec
import proofs.«115941_j82669530513626_1_alg».proof.Proof.LibDense
import proofs.«115941_j82669530513626_1_alg».proof.Proof.LibColumn
import proofs.«115941_j82669530513626_1_alg».proof.Proof.LibKeepdims

noncomputable section

namespace Cert.KerMean

open Cert.KernelIdeal Cert.KernelIdeal.Gen Cert.TwoHeads Cert.LibDense Idealize.ShloMosaic Idealize.ShloMosaic.ValueIdx

/-- A gated layer of width 512 on a block of pre-activations, by rows. -/
theorem rows_cell512 (pre : FVec Ideal ⟨2, ![512, 2048]⟩ .f32)
    (h0 : (⟨2, ![512, 2048]⟩ : Shape).Slices ![0, 0] ⟨2, ![512, 512]⟩)
    (h1 : (⟨2, ![512, 2048]⟩ : Shape).Slices ![0, 1024] ⟨2, ![512, 512]⟩)
    (h2 : (⟨2, ![512, 2048]⟩ : Shape).Slices ![0, 1536] ⟨2, ![512, 512]⟩) :
    rows (mulf (logistic (extractStridedSlice ⟨2, ![512, 512]⟩ ![0, 1536] pre h2))
        (tanh (mulf (logistic (extractStridedSlice ⟨2, ![512, 512]⟩ ![0, 0] pre h0))
          (tanh (extractStridedSlice ⟨2, ![512, 512]⟩ ![0, 1024] pre h1)))))
      = fun p => cell512 (rows pre p) := by
  funext p j
  show Ideal.logistic (extractStridedSlice ⟨2, ![512, 512]⟩ ![0, 1536] pre h2 (ix2 p j))
      * Ideal.tanh (Ideal.logistic (extractStridedSlice ⟨2, ![512, 512]⟩ ![0, 0] pre h0 (ix2 p j))
        * Ideal.tanh (extractStridedSlice ⟨2, ![512, 512]⟩ ![0, 1024] pre h1 (ix2 p j))) = _
  rw [slice2_axis1_apply 1536 pre h2 p j (⟨1536 + j.val, by omega⟩ : Fin 2048) rfl,
    slice2_axis1_apply 0 pre h0 p j (⟨0 + j.val, by omega⟩ : Fin 2048) rfl,
    slice2_axis1_apply 1024 pre h1 p j (⟨1024 + j.val, by omega⟩ : Fin 2048) rfl]
  rfl

/-- The last product of the mean head, by rows: the weighted sums of the rectified second gated layer. -/
theorem rows_pay3 (v0 : Vec Ideal S512x128 .bf16) (v2 : Vec Ideal S128x2048 .bf16) (v5 : Vec Ideal S1x2048 .f32)
    (v19 : Vec Ideal S512x2048 .bf16) (v22 : Vec Ideal S1x2048 .f32) (v38 : Vec Ideal S512x10 .bf16) :
    rows (k0_pay3 v0 v2 v5 v19 v22 v38)
      = fun p => dot (matT v38) (fun k => relu (cell512 (lin (matT v19) (rowv v22)
          (cell512 (lin (matT v2) (rowv v5) (rows v0 p)))) k)) := by
  unfold k0_pay3 k0_pay2
  simp only [rows_matmul dot_S512x512_S512x10_S512x10_1_0_0_1_n_n rfl rfl rfl rfl rfl rfl,
    rows_matmul dot_S512x512_S512x2048_S512x2048_1_0_0_1_n_n rfl rfl rfl rfl rfl rfl,
    rows_matmul dot_S512x128_S128x2048_S512x2048_1_0_0_1_n_n rfl rfl rfl rfl rfl rfl,
    rows_truncf, rows_maximumf_splat, rows_cell512, rows_addf_rowBias, rows_shapeCast_self, zero_word]
  rfl

/-- The bias, the sum over the ten columns and the cast to one column, by rows. -/
theorem rows_pay4 (v40 : FVec Ideal S512x10 .f32) (v41 : Vec Ideal S1x10 .f32) :
    rows (k0_pay4 v40 v41) = fun p _ => ∑ j : Fin 10, (rows v40 p j + rowv v41 j) := by
  unfold k0_pay4
  funext p u
  dsimp only [rows]
  rw [LibColumn.shapeCast_a_a1_apply]
  refine (LibKeepdims.sum_last2_apply _ _ _ _ _ p).trans ?_
  refine Finset.sum_congr rfl fun j _ => ?_
  show v40 (ix2 p j) + broadcastTo S512x10 _ broadcasts_S1x10_S512x10 (ix2 p j) = _
  rw [broadcastTo_1b_ab_apply, shapeCast_self]
  rfl

/-- The block of means: row `p` holds the mean head of row `p` of the input block. -/
theorem rows_mean (v0 : Vec Ideal S512x128 .bf16) (v2 : Vec Ideal S128x2048 .bf16) (v5 : Vec Ideal S1x2048 .f32)
    (v19 : Vec Ideal S512x2048 .bf16) (v22 : Vec Ideal S1x2048 .f32) (v38 : Vec Ideal S512x10 .bf16)
    (v41 : Vec Ideal S1x10 .f32) :
    rows (k0_pay4 (k0_pay3 v0 v2 v5 v19 v22 v38) v41)
      = fun p _ => meanHead (matT v2) (rowv v5) (matT v19) (rowv v22) (matT v38) (rowv v41) (rows v0 p) := by
  rw [rows_pay4, rows_pay3]
  rfl

end Cert.KerMean

end
-- ==== Proof.LibSplat.lean ====
/-
  A one-entry array spread over a whole matrix, read at an index: a `[1, 1]` array broadcast to `[a, b]` reads its
  one entry everywhere. (The row form `[1, b] → [a, b]` is in the library and the column form `[a, 1] → [a, b]` beside
  it; this is the remaining corner, which a per-tensor statistic kept with both its axes meets.)
-/
import Idealize.ShloMosaic.Lib.Pipeline.Value
import Idealize.ShloMosaic.Lib.ValueIdx

namespace Cert.LibSplat

open Idealize.ShloMosaic Idealize.ShloMosaic.ValueIdx

variable {α : Type}

/-- A `[1, 1]` array broadcast to `[a, b]` reads, at every `(p, c)`, the operand's one entry. -/
theorem broadcastTo_11_ab_apply {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

end Cert.LibSplat
-- ==== Proof.KerScale.lean ====
/-
  The kernel's scale head on one block of 512 rows, by rows: two dense layers each followed by a gated layer of width 256
  (gate groups at columns 0, 512 and 768 of the 1024 pre-activations), the rectifier, the product with the one-column
  weight block plus the one-entry bias, `softplus` in the kernel's spelling (a NaN guard that never fires, `0 - |d|` for
  `-|d|`), and the added constant.
-/
import proofs.«115941_j82669530513626_1_alg».proof.Proof.Gen.KernelIdeal.Skeleton
import proofs.«115941_j82669530513626_1_alg».proof.Proof.Spec
import proofs.«115941_j82669530513626_1_alg».proof.Proof.LibDense
import proofs.«115941_j82669530513626_1_alg».proof.Proof.LibSplat

noncomputable section

namespace Cert.KerScale

open Cert.KernelIdeal Cert.KernelIdeal.Gen Cert.TwoHeads Cert.LibDense Idealize.ShloMosaic Idealize.ShloMosaic.ValueIdx

/-- A gated layer of width 256 on a block of pre-activations, by rows. -/
theorem rows_cell256 (pre : FVec Ideal ⟨2, ![512, 1024]⟩ .f32)
    (h0 : (⟨2, ![512, 1024]⟩ : Shape).Slices ![0, 0] ⟨2, ![512, 256]⟩)
    (h1 : (⟨2, ![512, 1024]⟩ : Shape).Slices ![0, 512] ⟨2, ![512, 256]⟩)
    (h2 : (⟨2, ![512, 1024]⟩ : Shape).Slices ![0, 768] ⟨2, ![512, 256]⟩) :
    rows (mulf (logistic (extractStridedSlice ⟨2, ![512, 256]⟩ ![0, 768] pre h2))
        (tanh (mulf (logistic (extractStridedSlice ⟨2, ![512, 256]⟩ ![0, 0] pre h0))
          (tanh (extractStridedSlice ⟨2, ![512, 256]⟩ ![0, 512] pre h1)))))
      = fun p => cell256 (rows pre p) := by
  funext p j
  show Ideal.logistic (extractStridedSlice ⟨2, ![512, 256]⟩ ![0, 768] pre h2 (ix2 p j))
      * Ideal.tanh (Ideal.logistic (extractStridedSlice ⟨2, ![512, 256]⟩ ![0, 0] pre h0 (ix2 p j))
        * Ideal.tanh (extractStridedSlice ⟨2, ![512, 256]⟩ ![0, 512] pre h1 (ix2 p j))) = _
  rw [slice2_axis1_apply 768 pre h2 p j (⟨768 + j.val, by omega⟩ : Fin 1024) rfl,
    slice2_axis1_apply 0 pre h0 p j (⟨0 + j.val, by omega⟩ : Fin 1024) rfl,
    slice2_axis1_apply 512 pre h1 p j (⟨512 + j.val, by omega⟩ : Fin 1024) rfl]
  rfl

/-- The first step of the body, a cast of the input block to its own shape, keeps its rows. -/
theorem rows_pay2 (v0 : Vec Ideal S512x128 .bf16) : rows (k0_pay2 v0) = rows v0 := by
  unfold k0_pay2
  exact rows_shapeCast_self v0 _

/-- The rectified second gated layer of the scale head, by rows. -/
theorem rows_pay5 (v1 : FVec Ideal S512x128 .bf16) (v48 : Vec Ideal S128x1024 .bf16) (v51 : Vec Ideal S1x1024 .f32)
    (v65 : Vec Ideal S256x1024 .bf16) (v68 : Vec Ideal S1x1024 .f32) :
    rows (k0_pay5 v1 v48 v51 v65 v68)
      = fun p k => relu (cell256 (lin (matT v65) (rowv v68) (cell256 (lin (matT v48) (rowv v51) (rows v1 p)))) k) := by
  unfold k0_pay5
  simp only [rows_matmul dot_S512x256_S256x1024_S512x1024_1_0_0_1_n_n rfl rfl rfl rfl rfl rfl,
    rows_matmul dot_S512x128_S128x1024_S512x1024_1_0_0_1_n_n rfl rfl rfl rfl rfl rfl,
    rows_truncf, rows_maximumf_splat, rows_cell256, rows_addf_rowBias, rows_shapeCast_self, zero_word]
  rfl

/-- The last dense value, `softplus` and the added constant, by rows. -/
theorem rows_pay1 (v83 : FVec Ideal S512x256 .bf16) (v84 : Vec Ideal S256x1 .bf16) (v87 : Vec Ideal S1x1 .f32) :
    rows (k0_pay1 v83 v84 v87)
      = fun p _ => softplus (lin (matT v84) (rowv v87) (rows v83 p) (0 : Fin 1)) + Ideal.ofBits .f32 0x358637BD#32 := by
  unfold k0_pay1
  funext p u
  obtain rfl : u = 0 := Subsingleton.elim _ _
  have hZ : (addf (matmul dot_S512x256_S256x1_S512x1_1_0_0_1_n_n none v83
          (shapeCast S256x1 v84 shapeCasts_S256x1_S256x1 : FVec Ideal S256x1 .bf16) (constant S512x1 .f32 0x00000000#32))
        (broadcastTo S512x1 (shapeCast S1x1 v87 shapeCasts_S1x1_S1x1 : FVec Ideal S1x1 .f32) broadcasts_S1x1_S512x1)
        : FVec Ideal S512x1 .f32) (ix2 p (0 : Fin 1))
      = lin (matT v84) (rowv v87) (rows v83 p) (0 : Fin 1) := by
    show matmul dot_S512x256_S256x1_S512x1_1_0_0_1_n_n none v83
          (shapeCast S256x1 v84 shapeCasts_S256x1_S256x1 : FVec Ideal S256x1 .bf16) (constant S512x1 .f32 0x00000000#32)
          (ix2 p (0 : Fin 1))
        + broadcastTo S512x1 (shapeCast S1x1 v87 shapeCasts_S1x1_S1x1 : FVec Ideal S1x1 .f32) broadcasts_S1x1_S512x1
          (ix2 p (0 : Fin 1)) = _
    rw [matmul2d_apply dot_S512x256_S256x1_S512x1_1_0_0_1_n_n rfl rfl rfl rfl rfl rfl,
      LibSplat.broadcastTo_11_ab_apply, shapeCast_self, shapeCast_self]
    rfl
  dsimp only [rows]
  show _ + _ = _
  exact congrArg₂ (· + ·) ((softplus_kernel _).trans (congrArg softplus hZ)) rfl

/-- The block of scales: row `p` holds the scale head of row `p` of the input block. -/
theorem rows_scale (v0 : Vec Ideal S512x128 .bf16) (v48 : Vec Ideal S128x1024 .bf16) (v51 : Vec Ideal S1x1024 .f32)
    (v65 : Vec Ideal S256x1024 .bf16) (v68 : Vec Ideal S1x1024 .f32) (v84 : Vec Ideal S256x1 .bf16)
    (v87 : Vec Ideal S1x1 .f32) :
    rows (k0_pay1 (k0_pay5 (k0_pay2 v0) v48 v51 v65 v68) v84 v87)
      = fun p _ => scaleHead (matT v48) (rowv v51) (matT v65) (rowv v68) (matT v84) (rowv v87) (rows v0 p) := by
  rw [rows_pay1, rows_pay5, rows_pay2]
  rfl

end Cert.KerScale

end
-- ==== Proof.KerValue.lean ====
/-
  The kernel's two results as whole arrays of its arguments.

  Before the region the program flattens the input to `[32768, 128]`, transposes each weight array and reshapes each
  bias to one row (changes of float format are the identity on extended reals); so the region finds, in each window's
  array, a plain re-indexing of one argument. The grid has 64 points; at point `t` the body sees rows `512 t … 512 t + 511`
  of the flattened input and every weight and bias whole, and writes rows `512 t …` of the two `[32768, 1]` outputs. By the
  two block lemmas (the mean head and the scale head of a block, by rows) what point `t` writes back is the block of ONE
  column that does not depend on `t`; the 64 blocks tile the outputs; hence each output is that column. After the region
  the two columns are reshaped to `[128, 256]`.
-/
import proofs.«115941_j82669530513626_1_alg».proof.Proof.Gen.KernelIdeal.Frame
import proofs.«115941_j82669530513626_1_alg».proof.Proof.KerMean
import proofs.«115941_j82669530513626_1_alg».proof.Proof.KerScale
import Idealize.ShloMosaic.Lib.Pipeline.Value
import Idealize.ShloMosaic.Lib.StableHlo.Run
import Idealize.ShloMosaic.Lib.ValueLayout

noncomputable section

namespace Cert.KerValue

open Cert.KernelIdeal Cert.KernelIdeal.Gen Cert.TwoHeads Cert.LibDense
open Idealize.ShloMosaic Idealize.ShloMosaic.ValueIdx Idealize.ShloMosaic.TcCoe Idealize.SL.Sem

variable (m : (ℓ : Loc nD τ sig) → Buf (Elt Ideal) ℓ) (ρ : Dev nD → PrngReg)

/-! ## What the region finds in each window's array -/

/-- The flattened input: entry `(n, k)` is feature `k` of row `n`. -/
theorem V_input (c : Dev nD) (n : Fin 32768) (k : Fin 128) :
    V m c main_v1 (ix2 n k) = row (m ((c : Thread nD τ).loc main_arg0)) n k := by
  have e : (V m c main_v1 : S32768x128.Idx → EReal)
      = (truncf .bf16 (shapeCast S32768x128 (m ((c : Thread nD τ).loc main_arg0)) shapeCasts_S128x256x128_S32768x128)
          bitsLt_bf16_f32 : FVec Ideal S32768x128 .bf16) := by
    show StableHlo.after hostOps0 (fun b => m (c, b)) (Proc.devRef .tc main_v1) = _
    after_results
    rfl
  have key : ∀ X : S128x256x128.Idx → EReal,
      shapeCast S32768x128 X shapeCasts_S128x256x128_S32768x128 (ix2 n k) = row X n k := fun X =>
    shapeCast_apply X _ _ _ (by
      rewrite [Shape.rowMajor_val_three, Shape.rowMajor_val_two]
      show (n.val / 256 * 256 + n.val % 256) * 128 + k.val = n.val * 128 + k.val
      omega)
  exact (congrFun e _).trans (key _)

/-- The first weight block of the mean head, held transposed. -/
theorem V_w0 (c : Dev nD) (k : Fin 128) (j : Fin 2048) :
    V m c main_v3 (ix2 k j) = mat (m ((c : Thread nD τ).loc main_arg1)) j k := by
  have e : (V m c main_v3 : S128x2048.Idx → EReal)
      = (truncf .bf16 (transpose S128x2048 [1, 0] (m ((c : Thread nD τ).loc main_arg1)) transposes_S2048x128_S128x2048_1_0)
          bitsLt_bf16_f32 : FVec Ideal S128x2048 .bf16) := by
    show StableHlo.after hostOps0 (fun b => m (c, b)) (Proc.devRef .tc main_v3) = _
    after_results
  exact (congrFun e _).trans (transpose_ix2_apply _ _ k j)

/-- The first bias of the mean head, held as one row. -/
theorem V_b0 (c : Dev nD) (u : Fin 1) (j : Fin 2048) :
    V m c main_v14 (ix2 u j) = vec (m ((c : Thread nD τ).loc main_arg2)) j := by
  have e : (V m c main_v14 : S1x2048.Idx → EReal)
      = shapeCast S1x2048 (m ((c : Thread nD τ).loc main_arg2)) shapeCasts_S2048_S1x2048 := by
    show StableHlo.after hostOps0 (fun b => m (c, b)) (Proc.devRef .tc main_v14) = _
    after_results
    rfl
  exact (congrFun e _).trans (shapeCast_a_1a_apply _ _ u j)

/-- The second weight block of the mean head, held transposed. -/
theorem V_w1 (c : Dev nD) (k : Fin 512) (j : Fin 2048) :
    V m c main_v5 (ix2 k j) = mat (m ((c : Thread nD τ).loc main_arg3)) j k := by
  have e : (V m c main_v5 : S512x2048.Idx → EReal)
      = (truncf .bf16 (transpose S512x2048 [1, 0] (m ((c : Thread nD τ).loc main_arg3)) transposes_S2048x512_S512x2048_1_0)
          bitsLt_bf16_f32 : FVec Ideal S512x2048 .bf16) := by
    show StableHlo.after hostOps0 (fun b => m (c, b)) (Proc.devRef .tc main_v5) = _
    after_results
  exact (congrFun e _).trans (transpose_ix2_apply _ _ k j)

/-- The second bias of the mean head, held as one row. -/
theorem V_b1 (c : Dev nD) (u : Fin 1) (j : Fin 2048) :
    V m c main_v15 (ix2 u j) = vec (m ((c : Thread nD τ).loc main_arg4)) j := by
  have e : (V m c main_v15 : S1x2048.Idx → EReal)
      = shapeCast S1x2048 (m ((c : Thread nD τ).loc main_arg4)) shapeCasts_S2048_S1x2048 := by
    show StableHlo.after hostOps0 (fun b => m (c, b)) (Proc.devRef .tc main_v15) = _
    after_results
    rfl
  exact (congrFun e _).trans (shapeCast_a_1a_apply _ _ u j)

/-- The last weight block of the mean head, held transposed. -/
theorem V_wa (c : Dev nD) (k : Fin 512) (j : Fin 10) :
    V m c main_v7 (ix2 k j) = mat (m ((c : Thread nD τ).loc main_arg5)) j k := by
  have e : (V m c main_v7 : S512x10.Idx → EReal)
      = (truncf .bf16 (transpose S512x10 [1, 0] (m ((c : Thread nD τ).loc main_arg5)) transposes_S10x512_S512x10_1_0)
          bitsLt_bf16_f32 : FVec Ideal S512x10 .bf16) := by
    show StableHlo.after hostOps0 (fun b => m (c, b)) (Proc.devRef .tc main_v7) = _
    after_results
  exact (congrFun e _).trans (transpose_ix2_apply _ _ k j)

/-- The last bias of the mean head, held as one row. -/
theorem V_ba (c : Dev nD) (u : Fin 1) (j : Fin 10) :
    V m c main_v16 (ix2 u j) = vec (m ((c : Thread nD τ).loc main_arg6)) j := by
  have e : (V m c main_v16 : S1x10.Idx → EReal)
      = shapeCast S1x10 (m ((c : Thread nD τ).loc main_arg6)) shapeCasts_S10_S1x10 := by
    show StableHlo.after hostOps0 (fun b => m (c, b)) (Proc.devRef .tc main_v16) = _
    after_results
    rfl
  exact (congrFun e _).trans (shapeCast_a_1a_apply _ _ u j)

/-- The first weight block of the scale head, held transposed. -/
theorem V_v0 (c : Dev nD) (k : Fin 128) (j : Fin 1024) :
    V m c main_v9 (ix2 k j) = mat (m ((c : Thread nD τ).loc main_arg7)) j k := by
  have e : (V m c main_v9 : S128x1024.Idx → EReal)
      = (truncf .bf16 (transpose S128x1024 [1, 0] (m ((c : Thread nD τ).loc main_arg7)) transposes_S1024x128_S128x1024_1_0)
          bitsLt_bf16_f32 : FVec Ideal S128x1024 .bf16) := by
    show StableHlo.after hostOps0 (fun b => m (c, b)) (Proc.devRef .tc main_v9) = _
    after_results
  exact (congrFun e _).trans (transpose_ix2_apply _ _ k j)

/-- The first bias of the scale head, held as one row. -/
theorem V_c0 (c : Dev nD) (u : Fin 1) (j : Fin 1024) :
    V m c main_v17 (ix2 u j) = vec (m ((c : Thread nD τ).loc main_arg8)) j := by
  have e : (V m c main_v17 : S1x1024.Idx → EReal)
      = shapeCast S1x1024 (m ((c : Thread nD τ).loc main_arg8)) shapeCasts_S1024_S1x1024 := by
    show StableHlo.after hostOps0 (fun b => m (c, b)) (Proc.devRef .tc main_v17) = _
    after_results
    rfl
  exact (congrFun e _).trans (shapeCast_a_1a_apply _ _ u j)

/-- The second weight block of the scale head, held transposed. -/
theorem V_v1 (c : Dev nD) (k : Fin 256) (j : Fin 1024) :
    V m c main_v11 (ix2 k j) = mat (m ((c : Thread nD τ).loc main_arg9)) j k := by
  have e : (V m c main_v11 : S256x1024.Idx → EReal)
      = (truncf .bf16 (transpose S256x1024 [1, 0] (m ((c : Thread nD τ).loc main_arg9)) transposes_S1024x256_S256x1024_1_0)
          bitsLt_bf16_f32 : FVec Ideal S256x1024 .bf16) := by
    show StableHlo.after hostOps0 (fun b => m (c, b)) (Proc.devRef .tc main_v11) = _
    after_results
  exact (congrFun e _).trans (transpose_ix2_apply _ _ k j)

/-- The second bias of the scale head, held as one row. -/
theorem V_c1 (c : Dev nD) (u : Fin 1) (j : Fin 1024) :
    V m c main_v18 (ix2 u j) = vec (m ((c : Thread nD τ).loc main_arg10)) j := by
  have e : (V m c main_v18 : S1x1024.Idx → EReal)
      = shapeCast S1x1024 (m ((c : Thread nD τ).loc main_arg10)) shapeCasts_S1024_S1x1024 := by
    show StableHlo.after hostOps0 (fun b => m (c, b)) (Proc.devRef .tc main_v18) = _
    after_results
    rfl
  exact (congrFun e _).trans (shapeCast_a_1a_apply _ _ u j)

/-- The last weight block of the scale head, one column, held transposed. -/
theorem V_wn (c : Dev nD) (k : Fin 256) (j : Fin 1) :
    V m c main_v13 (ix2 k j) = mat (m ((c : Thread nD τ).loc main_arg11)) j k := by
  have e : (V m c main_v13 : S256x1.Idx → EReal)
      = (truncf .bf16 (transpose S256x1 [1, 0] (m ((c : Thread nD τ).loc main_arg11)) transposes_S1x256_S256x1_1_0)
          bitsLt_bf16_f32 : FVec Ideal S256x1 .bf16) := by
    show StableHlo.after hostOps0 (fun b => m (c, b)) (Proc.devRef .tc main_v13) = _
    after_results
  exact (congrFun e _).trans (transpose_ix2_apply _ _ k j)

/-- The last bias of the scale head, one entry. -/
theorem V_bn (c : Dev nD) (u : Fin 1) (j : Fin 1) :
    V m c main_v19 (ix2 u j) = vec (m ((c : Thread nD τ).loc main_arg12)) j := by
  have e : (V m c main_v19 : S1x1.Idx → EReal)
      = shapeCast S1x1 (m ((c : Thread nD τ).loc main_arg12)) shapeCasts_S1_S1x1 := by
    show StableHlo.after hostOps0 (fun b => m (c, b)) (Proc.devRef .tc main_v19) = _
    after_results
    rfl
  exact (congrFun e _).trans (shapeCast_a_1a_apply _ _ u j)

/-! ## Each window's block at a grid point

  A block's entry sits in its array, on each axis, at the block index times the block's extent plus the coordinate inside
  the block. The input window's block index is the grid point on the row axis, so its block is rows `512 t … 512 t + 511`;
  every weight and bias window has block index zero, so its block is its whole array. -/

theorem idx_0 : ∀ t : Fin cfg0.N, win0_0.index t (0 : Fin 2) = t.val ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 2) = 0 ∧ win0_7.index t (1 : Fin 2) = 0 :=
  (by decide +kernel : ∀ t : Fin grid0.N, _)
theorem idx_8 : ∀ t : Fin cfg0.N, win0_8.index t (0 : Fin 2) = 0 ∧ win0_8.index t (1 : Fin 2) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 2) = 0 ∧ win0_11.index t (1 : Fin 2) = 0 :=
  (by decide +kernel : ∀ t : Fin grid0.N, _)
theorem idx_12 : ∀ t : Fin cfg0.N, win0_12.index t (0 : Fin 2) = 0 ∧ win0_12.index t (1 : Fin 2) = 0 :=
  (by decide +kernel : ∀ t : Fin grid0.N, _)
theorem idx_13 : ∀ t : Fin cfg0.N, win0_13.index t (0 : Fin 2) = t.val ∧ win0_13.index t (1 : Fin 2) = 0 :=
  (by decide +kernel : ∀ t : Fin grid0.N, _)
theorem idx_14 : ∀ t : Fin cfg0.N, win0_14.index t (0 : Fin 2) = t.val ∧ win0_14.index t (1 : Fin 2) = 0 :=
  (by decide +kernel : ∀ t : Fin grid0.N, _)

/-- The grid has 64 points. -/
theorem t_lt (t : Fin cfg0.N) : t.val < 64 := lt_of_lt_of_eq t.isLt N_0

/-- The row of the flattened input that row `p` of the block at point `t` is. -/
def rowOf (t : Fin cfg0.N) (p : Fin 512) : Fin 32768 := ⟨t.val * 512 + p.val, by have := t_lt t; omega⟩

/-- The input block at point `t`: its row `p` is row `512 t + p` of the flattened input. -/
theorem blk_input (c : Dev nD) (t : Fin cfg0.N) (p : Fin 512) :
    rows (iblk m c 0 t : Vec Ideal S512x128 .bf16) p = row (m ((c : Thread nD τ).loc main_arg0)) (rowOf t p) := by
  funext k
  obtain ⟨e0, e1⟩ := idx_0 t
  show V m c main_v1 (((cfg0.win 0).blk t).view.emb (ix2 p k)) = _
  have he : ((cfg0.win 0).blk t).view.emb (ix2 p k) = ix2 (rowOf t p) k := by
    funext a; apply Fin.ext
    match a with
    | ⟨0, _⟩ => show win0_0.index t (0 : Fin 2) * 512 + 1 * p.val = t.val * 512 + p.val; omega
    | ⟨1, _⟩ => show win0_0.index t (1 : Fin 2) * 128 + 1 * k.val = k.val; omega
  rw [he]
  exact V_input m c _ k

theorem blk_w0 (c : Dev nD) (t : Fin cfg0.N) :
    matT (iblk m c 1 t : Vec Ideal S128x2048 .bf16) = mat (m ((c : Thread nD τ).loc main_arg1)) := by
  funext j k
  obtain ⟨e0, e1⟩ := idx_1 t
  show V m c main_v3 (((cfg0.win 1).blk t).view.emb (ix2 k j)) = _
  have he : ((cfg0.win 1).blk t).view.emb (ix2 k j) = ix2 k j := by
    funext a; apply Fin.ext
    match a with
    | ⟨0, _⟩ => show win0_1.index t (0 : Fin 2) * 128 + 1 * k.val = k.val; omega
    | ⟨1, _⟩ => show win0_1.index t (1 : Fin 2) * 2048 + 1 * j.val = j.val; omega
  rw [he]
  exact V_w0 m c k j

theorem blk_b0 (c : Dev nD) (t : Fin cfg0.N) :
    rowv (iblk m c 2 t : Vec Ideal S1x2048 .f32) = vec (m ((c : Thread nD τ).loc main_arg2)) := by
  funext j
  obtain ⟨e0, e1⟩ := idx_2 t
  show V m c main_v14 (((cfg0.win 2).blk t).view.emb (ix2 (0 : Fin 1) j)) = _
  have he : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 2048 + 1 * j.val = j.val; omega
  rw [he]
  exact V_b0 m c 0 j

theorem blk_w1 (c : Dev nD) (t : Fin cfg0.N) :
    matT (iblk m c 3 t : Vec Ideal S512x2048 .bf16) = mat (m ((c : Thread nD τ).loc main_arg3)) := by
  funext j k
  obtain ⟨e0, e1⟩ := idx_3 t
  show V m c main_v5 (((cfg0.win 3).blk t).view.emb (ix2 k j)) = _
  have he : ((cfg0.win 3).blk t).view.emb (ix2 k j) = ix2 k j := by
    funext a; apply Fin.ext
    match a with
    | ⟨0, _⟩ => show win0_3.index t (0 : Fin 2) * 512 + 1 * k.val = k.val; omega
    | ⟨1, _⟩ => show win0_3.index t (1 : Fin 2) * 2048 + 1 * j.val = j.val; omega
  rw [he]
  exact V_w1 m c k j

theorem blk_b1 (c : Dev nD) (t : Fin cfg0.N) :
    rowv (iblk m c 4 t : Vec Ideal S1x2048 .f32) = vec (m ((c : Thread nD τ).loc main_arg4)) := by
  funext j
  obtain ⟨e0, e1⟩ := idx_4 t
  show V m c main_v15 (((cfg0.win 4).blk t).view.emb (ix2 (0 : Fin 1) j)) = _
  have he : ((cfg0.win 4).blk t).view.emb (ix2 (0 : Fin 1) j) = ix2 (0 : Fin 1) j := by
    funext a; apply Fin.ext
    match a with
    | ⟨0, _⟩ => show win0_4.index t (0 : Fin 2) * 1 + 1 * 0 = 0; omega
    | ⟨1, _⟩ => show win0_4.index t (1 : Fin 2) * 2048 + 1 * j.val = j.val; omega
  rw [he]
  exact V_b1 m c 0 j

theorem blk_wa (c : Dev nD) (t : Fin cfg0.N) :
    matT (iblk m c 5 t : Vec Ideal S512x10 .bf16) = mat (m ((c : Thread nD τ).loc main_arg5)) := by
  funext j k
  obtain ⟨e0, e1⟩ := idx_5 t
  show V m c main_v7 (((cfg0.win 5).blk t).view.emb (ix2 k j)) = _
  have he : ((cfg0.win 5).blk t).view.emb (ix2 k j) = ix2 k j := by
    funext a; apply Fin.ext
    match a with
    | ⟨0, _⟩ => show win0_5.index t (0 : Fin 2) * 512 + 1 * k.val = k.val; omega
    | ⟨1, _⟩ => show win0_5.index t (1 : Fin 2) * 10 + 1 * j.val = j.val; omega
  rw [he]
  exact V_wa m c k j

theorem blk_ba (c : Dev nD) (t : Fin cfg0.N) :
    rowv (iblk m c 6 t : Vec Ideal S1x10 .f32) = vec (m ((c : Thread nD τ).loc main_arg6)) := by
  funext j
  obtain ⟨e0, e1⟩ := idx_6 t
  show V m c main_v16 (((cfg0.win 6).blk t).view.emb (ix2 (0 : Fin 1) j)) = _
  have he : ((cfg0.win 6).blk t).view.emb (ix2 (0 : Fin 1) j) = ix2 (0 : Fin 1) j := by
    funext a; apply Fin.ext
    match a with
    | ⟨0, _⟩ => show win0_6.index t (0 : Fin 2) * 1 + 1 * 0 = 0; omega
    | ⟨1, _⟩ => show win0_6.index t (1 : Fin 2) * 10 + 1 * j.val = j.val; omega
  rw [he]
  exact V_ba m c 0 j

theorem blk_v0 (c : Dev nD) (t : Fin cfg0.N) :
    matT (iblk m c 7 t : Vec Ideal S128x1024 .bf16) = mat (m ((c : Thread nD τ).loc main_arg7)) := by
  funext j k
  obtain ⟨e0, e1⟩ := idx_7 t
  show V m c main_v9 (((cfg0.win 7).blk t).view.emb (ix2 k j)) = _
  have he : ((cfg0.win 7).blk t).view.emb (ix2 k j) = ix2 k j := by
    funext a; apply Fin.ext
    match a with
    | ⟨0, _⟩ => show win0_7.index t (0 : Fin 2) * 128 + 1 * k.val = k.val; omega
    | ⟨1, _⟩ => show win0_7.index t (1 : Fin 2) * 1024 + 1 * j.val = j.val; omega
  rw [he]
  exact V_v0 m c k j

theorem blk_c0 (c : Dev nD) (t : Fin cfg0.N) :
    rowv (iblk m c 8 t : Vec Ideal S1x1024 .f32) = vec (m ((c : Thread nD τ).loc main_arg8)) := by
  funext j
  obtain ⟨e0, e1⟩ := idx_8 t
  show V m c main_v17 (((cfg0.win 8).blk t).view.emb (ix2 (0 : Fin 1) j)) = _
  have he : ((cfg0.win 8).blk t).view.emb (ix2 (0 : Fin 1) j) = ix2 (0 : Fin 1) j := by
    funext a; apply Fin.ext
    match a with
    | ⟨0, _⟩ => show win0_8.index t (0 : Fin 2) * 1 + 1 * 0 = 0; omega
    | ⟨1, _⟩ => show win0_8.index t (1 : Fin 2) * 1024 + 1 * j.val = j.val; omega
  rw [he]
  exact V_c0 m c 0 j

theorem blk_v1 (c : Dev nD) (t : Fin cfg0.N) :
    matT (iblk m c 9 t : Vec Ideal S256x1024 .bf16) = mat (m ((c : Thread nD τ).loc main_arg9)) := by
  funext j k
  obtain ⟨e0, e1⟩ := idx_9 t
  show V m c main_v11 (((cfg0.win 9).blk t).view.emb (ix2 k j)) = _
  have he : ((cfg0.win 9).blk t).view.emb (ix2 k j) = ix2 k j := by
    funext a; apply Fin.ext
    match a with
    | ⟨0, _⟩ => show win0_9.index t (0 : Fin 2) * 256 + 1 * k.val = k.val; omega
    | ⟨1, _⟩ => show win0_9.index t (1 : Fin 2) * 1024 + 1 * j.val = j.val; omega
  rw [he]
  exact V_v1 m c k j

theorem blk_c1 (c : Dev nD) (t : Fin cfg0.N) :
    rowv (iblk m c 10 t : Vec Ideal S1x1024 .f32) = vec (m ((c : Thread nD τ).loc main_arg10)) := by
  funext j
  obtain ⟨e0, e1⟩ := idx_10 t
  show V m c main_v18 (((cfg0.win 10).blk t).view.emb (ix2 (0 : Fin 1) j)) = _
  have he : ((cfg0.win 10).blk t).view.emb (ix2 (0 : Fin 1) j) = ix2 (0 : Fin 1) j := by
    funext a; apply Fin.ext
    match a with
    | ⟨0, _⟩ => show win0_10.index t (0 : Fin 2) * 1 + 1 * 0 = 0; omega
    | ⟨1, _⟩ => show win0_10.index t (1 : Fin 2) * 1024 + 1 * j.val = j.val; omega
  rw [he]
  exact V_c1 m c 0 j

theorem blk_wn (c : Dev nD) (t : Fin cfg0.N) :
    matT (iblk m c 11 t : Vec Ideal S256x1 .bf16) = mat (m ((c : Thread nD τ).loc main_arg11)) := by
  funext j k
  obtain ⟨e0, e1⟩ := idx_11 t
  show V m c main_v13 (((cfg0.win 11).blk t).view.emb (ix2 k j)) = _
  have he : ((cfg0.win 11).blk t).view.emb (ix2 k j) = ix2 k j := by
    funext a; apply Fin.ext
    match a with
    | ⟨0, _⟩ => show win0_11.index t (0 : Fin 2) * 256 + 1 * k.val = k.val; omega
    | ⟨1, _⟩ => show win0_11.index t (1 : Fin 2) * 1 + 1 * j.val = j.val; omega
  rw [he]
  exact V_wn m c k j

theorem blk_bn (c : Dev nD) (t : Fin cfg0.N) :
    rowv (iblk m c 12 t : Vec Ideal S1x1 .f32) = vec (m ((c : Thread nD τ).loc main_arg12)) := by
  funext j
  obtain ⟨e0, e1⟩ := idx_12 t
  show V m c main_v19 (((cfg0.win 12).blk t).view.emb (ix2 (0 : Fin 1) j)) = _
  have he : ((cfg0.win 12).blk t).view.emb (ix2 (0 : Fin 1) j) = ix2 (0 : Fin 1) j := by
    funext a; apply Fin.ext
    match a with
    | ⟨0, _⟩ => show win0_12.index t (0 : Fin 2) * 1 + 1 * 0 = 0; omega
    | ⟨1, _⟩ => show win0_12.index t (1 : Fin 2) * 1 + 1 * j.val = j.val; omega
  rw [he]
  exact V_bn m c 0 j

/-! ## From blocks to the arrays

  The two output windows move down with the grid point, one block of 512 rows per point, so their 64 blocks tile the
  `[32768, 1]` arrays: the row `r` is in the block of point `r / 512`. What point `t` writes back is the block of the
  column below at rows `512 t …`, hence the whole array ends equal to that column. -/

theorem hz : (![0, 0] : Fin 2 → Nat) = fun _ => 0 := funext fun a => by fin_cases a <;> rfl

/-- The column of means: entry `(r, 0)` is the mean head of row `r` of the flattened input. -/
def meansCol (c : Dev nD) : S32768x1.Idx → EReal := fun i =>
  meanHead (mat (m ((c : Thread nD τ).loc main_arg1))) (vec (m ((c : Thread nD τ).loc main_arg2)))
    (mat (m ((c : Thread nD τ).loc main_arg3))) (vec (m ((c : Thread nD τ).loc main_arg4)))
    (mat (m ((c : Thread nD τ).loc main_arg5))) (vec (m ((c : Thread nD τ).loc main_arg6)))
    (row (m ((c : Thread nD τ).loc main_arg0)) ⟨(i 0).val, (i 0).isLt⟩)

/-- What point `t` writes back to the means is block `t` of the column of means. -/
theorem flushed13 (c : Dev nD) (t : Fin cfg0.N) :
    (dats m 0 c).flushed 13 t = ((cfg0.win 13).blk t).view.read (Elt Ideal) (meansCol m c) := by
  show (cfg0.win 13).cut (grid0.coords t) ((dats m 0 c).after 13 t) = _
  rw [after0_13]
  unfold out0_13
  rw [View.canon_unit_zero hz]
  simp only [View.ld_unit_zero (S := S512x128) hz, View.ld_unit_zero (S := S128x2048) hz,
    View.ld_unit_zero (S := S1x2048) hz, View.ld_unit_zero (S := S512x2048) hz, View.ld_unit_zero (S := S512x10) hz,
    View.ld_unit_zero (S := S1x10) hz]
  funext y
  obtain ⟨p, u, rfl⟩ : ∃ (p : Fin 512) (u : Fin 1), y = ix2 p u := ⟨y 0, y 1, eq_ix2 y⟩
  obtain ⟨e0, e1⟩ := idx_13 t
  refine (congrFun (congrFun (KerMean.rows_mean (iblk m c 0 t) (iblk m c 1 t) (iblk m c 2 t) (iblk m c 3 t)
    (iblk m c 4 t) (iblk m c 5 t) (iblk m c 6 t)) p) u).trans ?_
  show meanHead (matT (iblk m c 1 t : Vec Ideal S128x2048 .bf16)) (rowv (iblk m c 2 t : Vec Ideal S1x2048 .f32))
      (matT (iblk m c 3 t : Vec Ideal S512x2048 .bf16)) (rowv (iblk m c 4 t : Vec Ideal S1x2048 .f32))
      (matT (iblk m c 5 t : Vec Ideal S512x10 .bf16)) (rowv (iblk m c 6 t : Vec Ideal S1x10 .f32))
      (rows (iblk m c 0 t : Vec Ideal S512x128 .bf16) p) = _
  rw [blk_w0 m c t, blk_b0 m c t, blk_w1 m c t, blk_b1 m c t, blk_wa m c t, blk_ba m c t, blk_input m c t p]
  refine congrArg (meanHead _ _ _ _ _ _) (congrArg (row _) (Fin.ext ?_))
  show t.val * 512 + p.val = win0_13.index t (0 : Fin 2) * 512 + 1 * p.val
  omega

/-- A row is in point `t`'s block of the means iff each coordinate is in the block's range on its axis. -/
theorem mem_blk13 (t : Fin cfg0.N) (i : S32768x1.Idx) :
    i ∈ ((cfg0.win 13).blk t).view.set ↔ ∀ a : Fin 2, win0_13.index t a * S512x1.size a ≤ (i a).val
      ∧ (i a).val < win0_13.index t a * S512x1.size a + S512x1.size a := by
  show i ∈ ((View.whole main_v20_0).slice (win0_13.rect t)).set ↔ _
  rw [View.set_slice_whole, Rect.mem_set_unit]
  exact Iff.rfl

/-- Every row of the means is in the block of point `row / 512`. -/
theorem cover13 (i : S32768x1.Idx) :
    ∃ t : Fin cfg0.N, (cfg0.win 13).flush t = true ∧ i ∈ ((cfg0.win 13).blk t).view.set := by
  have hi0 : (i 0).val < 32768 := (i 0).isLt
  have hi1 : (i 1).val < 1 := (i 1).isLt
  have hN : grid0.N = 64 := N_0
  let t : Fin cfg0.N := ⟨(i 0).val / 512, by show (i 0).val / 512 < grid0.N; omega⟩
  obtain ⟨e0, e1⟩ := idx_13 t
  have ht : t.val = (i 0).val / 512 := rfl
  refine ⟨t, flush0_13 t, ?_⟩
  rw [mem_blk13]
  intro a
  match a with
  | ⟨0, _⟩ =>
    show win0_13.index t (0 : Fin 2) * 512 ≤ (i 0).val ∧ (i 0).val < win0_13.index t (0 : Fin 2) * 512 + 512
    omega
  | ⟨1, _⟩ =>
    show win0_13.index t (1 : Fin 2) * 1 ≤ (i 1).val ∧ (i 1).val < win0_13.index t (1 : Fin 2) * 1 + 1
    omega

/-- The array of means after the region is the column of means. -/
theorem final13 (c : Dev nD) : (dats m 0 c).arrAt 13 cfg0.N = meansCol m c :=
  (dats m 0 c).arrAt_eq_of_cover 13 (meansCol m c) (fun t _ => flushed13 m c t) (cover13)

/-- The column of scales: entry `(r, 0)` is the scale head of row `r` of the flattened input. -/
def scalesCol (c : Dev nD) : S32768x1.Idx → EReal := fun i =>
  scaleHead (mat (m ((c : Thread nD τ).loc main_arg7))) (vec (m ((c : Thread nD τ).loc main_arg8)))
    (mat (m ((c : Thread nD τ).loc main_arg9))) (vec (m ((c : Thread nD τ).loc main_arg10)))
    (mat (m ((c : Thread nD τ).loc main_arg11))) (vec (m ((c : Thread nD τ).loc main_arg12)))
    (row (m ((c : Thread nD τ).loc main_arg0)) ⟨(i 0).val, (i 0).isLt⟩)

/-- What point `t` writes back to the scales is block `t` of the column of scales. -/
theorem flushed14 (c : Dev nD) (t : Fin cfg0.N) :
    (dats m 0 c).flushed 14 t = ((cfg0.win 14).blk t).view.read (Elt Ideal) (scalesCol m c) := by
  show (cfg0.win 14).cut (grid0.coords t) ((dats m 0 c).after 14 t) = _
  rw [after0_14]
  unfold out0_14
  rw [View.canon_unit_zero hz]
  simp only [View.ld_unit_zero (S := S512x128) hz, View.ld_unit_zero (S := S128x1024) hz,
    View.ld_unit_zero (S := S1x1024) hz, View.ld_unit_zero (S := S256x1024) hz, View.ld_unit_zero (S := S256x1) hz,
    View.ld_unit_zero (S := S1x1) hz]
  funext y
  obtain ⟨p, u, rfl⟩ : ∃ (p : Fin 512) (u : Fin 1), y = ix2 p u := ⟨y 0, y 1, eq_ix2 y⟩
  obtain ⟨e0, e1⟩ := idx_14 t
  refine (congrFun (congrFun (KerScale.rows_scale (iblk m c 0 t) (iblk m c 7 t) (iblk m c 8 t) (iblk m c 9 t)
    (iblk m c 10 t) (iblk m c 11 t) (iblk m c 12 t)) p) u).trans ?_
  show scaleHead (matT (iblk m c 7 t : Vec Ideal S128x1024 .bf16)) (rowv (iblk m c 8 t : Vec Ideal S1x1024 .f32))
      (matT (iblk m c 9 t : Vec Ideal S256x1024 .bf16)) (rowv (iblk m c 10 t : Vec Ideal S1x1024 .f32))
      (matT (iblk m c 11 t : Vec Ideal S256x1 .bf16)) (rowv (iblk m c 12 t : Vec Ideal S1x1 .f32))
      (rows (iblk m c 0 t : Vec Ideal S512x128 .bf16) p) = _
  rw [blk_v0 m c t, blk_c0 m c t, blk_v1 m c t, blk_c1 m c t, blk_wn m c t, blk_bn m c t, blk_input m c t p]
  refine congrArg (scaleHead _ _ _ _ _ _) (congrArg (row _) (Fin.ext ?_))
  show t.val * 512 + p.val = win0_14.index t (0 : Fin 2) * 512 + 1 * p.val
  omega

/-- A row is in point `t`'s block of the scales iff each coordinate is in the block's range on its axis. -/
theorem mem_blk14 (t : Fin cfg0.N) (i : S32768x1.Idx) :
    i ∈ ((cfg0.win 14).blk t).view.set ↔ ∀ a : Fin 2, win0_14.index t a * S512x1.size a ≤ (i a).val
      ∧ (i a).val < win0_14.index t a * S512x1.size a + S512x1.size a := by
  show i ∈ ((View.whole main_v20_1).slice (win0_14.rect t)).set ↔ _
  rw [View.set_slice_whole, Rect.mem_set_unit]
  exact Iff.rfl

/-- Every row of the scales is in the block of point `row / 512`. -/
theorem cover14 (i : S32768x1.Idx) :
    ∃ t : Fin cfg0.N, (cfg0.win 14).flush t = true ∧ i ∈ ((cfg0.win 14).blk t).view.set := by
  have hi0 : (i 0).val < 32768 := (i 0).isLt
  have hi1 : (i 1).val < 1 := (i 1).isLt
  have hN : grid0.N = 64 := N_0
  let t : Fin cfg0.N := ⟨(i 0).val / 512, by show (i 0).val / 512 < grid0.N; omega⟩
  obtain ⟨e0, e1⟩ := idx_14 t
  have ht : t.val = (i 0).val / 512 := rfl
  refine ⟨t, flush0_14 t, ?_⟩
  rw [mem_blk14]
  intro a
  match a with
  | ⟨0, _⟩ =>
    show win0_14.index t (0 : Fin 2) * 512 ≤ (i 0).val ∧ (i 0).val < win0_14.index t (0 : Fin 2) * 512 + 512
    omega
  | ⟨1, _⟩ =>
    show win0_14.index t (1 : Fin 2) * 1 ≤ (i 1).val ∧ (i 1).val < win0_14.index t (1 : Fin 2) * 1 + 1
    omega

/-- The array of scales after the region is the column of scales. -/
theorem final14 (c : Dev nD) : (dats m 0 c).arrAt 14 cfg0.N = scalesCol m c :=
  (dats m 0 c).arrAt_eq_of_cover 14 (scalesCol m c) (fun t _ => flushed14 m c t) (cover14)

/-! ## The two results

  After the region the program reshapes each `[32768, 1]` array to `[128, 256]`: entry `(a, b)` of a result is entry
  `(256 a + b, 0)` of its column. -/

/-- The first result is the array of means. -/
theorem res_means (c : Dev nD) :
    Pipeline.afterTail₀ cfgs (dats m) 0 (V0 m) [hostOps1] c main_v21
      = G0 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  unfold Pipeline.afterTail₀
  show StableHlo.after hostOps1 _ (Proc.devRef .tc main_v21) = _
  after_results
  have h13 := (Pipeline.withArrays_arr spec0 launch0.win.arr_inj c (V0 m c)
    (fun w => (dats m 0 c).arrAt w cfg0.N) 13).trans (final13 m c)
  funext i
  obtain ⟨a, b, rfl⟩ : ∃ (a : Fin 128) (b : Fin 256), i = ix2 a b := ⟨i 0, i 1, eq_ix2 i⟩
  have key : ∀ X : S32768x1.Idx → EReal,
      shapeCast S128x256 X shapeCasts_S32768x1_S128x256 (ix2 a b) = X (ix2 (flat a b) (0 : Fin 1)) := fun X =>
    shapeCast_apply X _ _ _ (by
      rewrite [Shape.rowMajor_val_two, Shape.rowMajor_val_two]
      show (a.val * 256 + b.val) * 1 + 0 = a.val * 256 + b.val
      omega)
  exact (key _).trans ((congrFun h13 _).trans rfl)

/-- The second result is the array of scales. -/
theorem res_scales (c : Dev nD) :
    Pipeline.afterTail₀ cfgs (dats m) 0 (V0 m) [hostOps1] c main_v22
      = G1 (m ((c : Thread nD τ).loc main_arg0)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) := by
  unfold Pipeline.afterTail₀
  show StableHlo.after hostOps1 _ (Proc.devRef .tc main_v22) = _
  after_results
  have h14 := (Pipeline.withArrays_arr spec0 launch0.win.arr_inj c (V0 m c)
    (fun w => (dats m 0 c).arrAt w cfg0.N) 14).trans (final14 m c)
  funext i
  obtain ⟨a, b, rfl⟩ : ∃ (a : Fin 128) (b : Fin 256), i = ix2 a b := ⟨i 0, i 1, eq_ix2 i⟩
  have key : ∀ X : S32768x1.Idx → EReal,
      shapeCast S128x256 X shapeCasts_S32768x1_S128x256 (ix2 a b) = X (ix2 (flat a b) (0 : Fin 1)) := fun X =>
    shapeCast_apply X _ _ _ (by
      rewrite [Shape.rowMajor_val_two, Shape.rowMajor_val_two]
      show (a.val * 256 + b.val) * 1 + 0 = a.val * 256 + b.val
      omega)
  exact (key _).trans ((congrFun h14 _).trans rfl)

/-! ## The run, read -/

/-- Every weakly fair execution of the idealized kernel terminates with its two results at the arrays of means and of
    scales of its arguments, and its arguments unchanged. -/
theorem run : θ_run defs (onTc (τ := τ) (main (F := Ideal))) ⟨m, fun _ => 0, ρ⟩ fun r => ∀ c : Dev nD,
      r.2.mem ((c.tc : Thread nD τ).loc main_v21)
        = G0 (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_v22)
        = G1 (m ((c.tc : Thread nD τ).loc main_arg0)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c =>
    ⟨((h c).2 main_v21 (Pipeline.mem_restRefs_of main_v21 (by decide) (by decide))).trans (res_means m c),
      ((h c).2 main_v22 (Pipeline.mem_restRefs_of main_v22 (by decide) (by decide))).trans (res_scales m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KerValue

end
-- ==== Proof.lean ====
/-
  A row-wise network with two heads: the kernel against its plain reference, equal at the ideal values.

  Both programs flatten the `[128, 256, 128]` input to 32768 rows of 128 features and send EVERY ROW, independently,
  through two heads (Proof/Spec.lean). The mean head is two gated layers of width 512 started from the zero state, a
  rectifier, a dense layer to 10 values and their sum; the scale head is two gated layers of width 256, a rectifier, a
  dense layer to one value, `softplus` and an added constant. The results are the two `[128, 256]` arrays whose entry
  `(a, b)` is the head's value on row `256 a + b`.

  The reference computes this on whole arrays: its logistic function is spelt `1 / (1 + e^(-z))`, its gates are column
  slices of the pre-activations, its `softplus` is the two-argument `logaddexp` whose NaN guard cannot fire on extended
  reals (Proof/RefMean.lean, Proof/RefScale.lean). The kernel computes it 512 rows at a time over a grid of 64 points,
  with the weights transposed beforehand and rounded to a shorter float format — the identity on extended reals — and
  with its own spelling of `softplus` (`0 - |d|` for `-|d|`); seen by its rows, each block is the same function of the
  same rows (Proof/KerMean.lean, Proof/KerScale.lean), the 64 blocks tile each output, and the program reshapes the two
  columns at the end (Proof/KerValue.lean). Term by term the two sides are one expression: every sum has the same terms
  in the same order of factors, so no law of arithmetic is used beyond `0 + x = x` and `0 - x = -x`, and the inputs'
  finiteness is never needed.
-/
import proofs.«115941_j82669530513626_1_alg».proof.Defs
import proofs.«115941_j82669530513626_1_alg».proof.Proof.Gen.Kernel
import proofs.«115941_j82669530513626_1_alg».proof.Proof.Gen.Kernel.Skeleton
import proofs.«115941_j82669530513626_1_alg».proof.Proof.Gen.Kernel.Launch
import proofs.«115941_j82669530513626_1_alg».proof.Proof.Gen.Kernel.Points
import proofs.«115941_j82669530513626_1_alg».proof.Proof.Gen.Kernel.Frame
import proofs.«115941_j82669530513626_1_alg».proof.Proof.Gen.KernelIdeal
import proofs.«115941_j82669530513626_1_alg».proof.Proof.Gen.KernelIdeal.Skeleton
import proofs.«115941_j82669530513626_1_alg».proof.Proof.Gen.KernelIdeal.Launch
import proofs.«115941_j82669530513626_1_alg».proof.Proof.Gen.KernelIdeal.Points
import proofs.«115941_j82669530513626_1_alg».proof.Proof.Gen.KernelIdeal.Frame
import proofs.«115941_j82669530513626_1_alg».proof.Proof.Gen.ReferenceIdeal
import proofs.«115941_j82669530513626_1_alg».proof.Proof.Gen.Pre_finite_inputs
import proofs.«115941_j82669530513626_1_alg».proof.Proof.Gen.ReferenceIdeal.Run
import proofs.«115941_j82669530513626_1_alg».proof.Proof.Gen.ReferenceIdeal.Read
import proofs.«115941_j82669530513626_1_alg».proof.Proof.RefMean
import proofs.«115941_j82669530513626_1_alg».proof.Proof.RefScale
import proofs.«115941_j82669530513626_1_alg».proof.Proof.KerValue
import Idealize.ShloMosaic.Adequacy
import Idealize.ShloMosaic.Init

noncomputable section

namespace Cert.Proof

open Idealize.ShloMosaic Idealize.SL.Sem Cert.TwoHeads

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The reference runs and keeps its arguments: its run with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- The idealization rewrote nothing. -/
theorem preserves : Cert.preserves_Kernel_KernelIdeal := trivial

/-- From memories that agree on the arguments both programs end with the array of means and the array of scales of
    those arguments. -/
theorem algebraic : Cert.algebraic_KernelIdeal_ReferenceIdeal := by
  intro m ρ m' ρ' _ hagree
  refine ⟨_, _, Cert.KerValue.run m ρ, ?_⟩
  refine (θ_run Cert.ReferenceIdeal.defs _ _).mono (fun _ h c => ?_)
    (Cert.ReferenceIdeal.Value.run (F := Ideal) m' ρ')
  obtain ⟨a0, a1, a2, a3, a4, a5, a6, a7, a8, a9, a10, a11, a12⟩ := hagree c
  refine ⟨?_, ?_, (h c).2.2⟩
  · refine (h c).1.trans ((Cert.ReferenceIdeal.Read.val_main_v58_eq m' c).trans
      ((Cert.RefMean.mean_eq _ _ _ _ _ _ _).trans ?_))
    rw [a0, a1, a2, a3, a4, a5, a6]
  · refine (h c).2.1.trans ((Cert.ReferenceIdeal.Read.val_main_v118_eq m' c).trans
      ((Cert.RefScale.scale_eq _ _ _ _ _ _ _).trans ?_))
    rw [a0, a7, a8, a9, a10, a11, a12]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
